-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S100000x2 : Shape := ⟨2, ![100000, 2]⟩
abbrev S5000x2 : Shape := ⟨2, ![5000, 2]⟩
abbrev S1x16 : Shape := ⟨2, ![1, 16]⟩
abbrev S3300000x2 : Shape := ⟨2, ![3300000, 2]⟩
abbrev S1x2 : Shape := ⟨2, ![1, 2]⟩

abbrev nBuf : Space → Nat
  | .hbm => 60
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x16, .f32⟩
  | .hbm, ⟨41, _⟩ => ⟨S_, .f32⟩
  | .hbm, ⟨42, _⟩ => ⟨S100000x16, .f32⟩
  | .hbm, ⟨43, _⟩ => ⟨S3300000x1, .i32⟩
  | .hbm, ⟨44, _⟩ => ⟨S100000x16, .f32⟩
  | .hbm, ⟨45, _⟩ => ⟨S100000x2, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x2, .f32⟩
  | .hbm, ⟨55, _⟩ => ⟨S_, .f32⟩
  | .hbm, ⟨56, _⟩ => ⟨S100000x2, .f32⟩
  | .hbm, ⟨57, _⟩ => ⟨S3300000x1, .i32⟩
  | .hbm, ⟨58, _⟩ => ⟨S100000x2, .f32⟩
  | .hbm, ⟨59, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S16, .f32⟩
  | .local _ .vmem, ⟨12, _⟩ => ⟨S16x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S5000x1, .f32⟩
  | .local _ .vmem, ⟨18, _⟩ => ⟨S5000x1, .f32⟩
  | .local _ .vmem, ⟨19, _⟩ => ⟨S2, .f32⟩
  | .local _ .vmem, ⟨20, _⟩ => ⟨S5000x2, .f32⟩
  | .local _ .vmem, ⟨21, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S_S100000x2 : S_.BroadcastsInDim S100000x2 (![] : Fin 0 → Fin S100000x2.rank)
  shapeCasts_S5000x2_S5000x2 : S5000x2.ShapeCasts S5000x2
  inb_S2_S2_0 : ∀ a, (![0] : Fin 1 → Nat) a + S2.size a ≤ S2.size a
  h_S2 : 0 < S2.numel
  shapeCasts_S2_S1x2 : S2.ShapeCasts S1x2
  shapeCasts_S1x2_S1x2 : S1x2.ShapeCasts S1x2
  broadcasts_S1x2_S5000x2 : S1x2.Broadcasts S5000x2
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x2.size a ≤ S16x2.size a
  hwx1_3 : ∀ i : grid1.Coords, EltTy.bits .f32 = 32 ∨ (Rect.block (s := S16x2) S16x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S100000x2.size a
  hwx1_4 : ∀ i : grid1.Coords, EltTy.bits .f32 = 32 ∨ (Rect.block (s := S100000x2) S5000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S100000x2.size a
  hwx2_0 : ∀ i : grid2.Coords, EltTy.bits .f32 = 32 ∨ (Rect.block (s := S100000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x2, .f32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S_, .i32⟩
  | .hbm, ⟨100, _⟩ => ⟨S3300000, .i32⟩
  | .hbm, ⟨101, _⟩ => ⟨S3300000, .i1⟩
  | .hbm, ⟨102, _⟩ => ⟨S_, .i32⟩
  | .hbm, ⟨103, _⟩ => ⟨S3300000, .i32⟩
  | .hbm, ⟨104, _⟩ => ⟨S3300000, .i32⟩
  | .hbm, ⟨105, _⟩ => ⟨S3300000, .i32⟩
  | .hbm, ⟨106, _⟩ => ⟨S3300000x1, .i32⟩
  | .hbm, ⟨107, _⟩ => ⟨S3300000, .f32⟩
  | .hbm, ⟨108, _⟩ => ⟨S3300000, .f32⟩
  | .hbm, ⟨109, _⟩ => ⟨S_, .i32⟩
  | .hbm, ⟨110, _⟩ => ⟨S3300000, .i32⟩
  | .hbm, ⟨111, _⟩ => ⟨S3300000, .i1⟩
  | .hbm, ⟨112, _⟩ => ⟨S_, .i32⟩
  | .hbm, ⟨113, _⟩ => ⟨S3300000, .i32⟩
  | .hbm, ⟨114, _⟩ => ⟨S3300000, .i32⟩
  | .hbm, ⟨115, _⟩ => ⟨S3300000, .i32⟩
  | .hbm, ⟨116, _⟩ => ⟨S3300000x1, .i32⟩
  | .hbm, ⟨117, _⟩ => ⟨S3300000x2, .f32⟩
  | .hbm, ⟨118, _⟩ => ⟨S3300000x1, .f32⟩
  | .hbm, ⟨119, _⟩ => ⟨S3300000x2, .f32⟩
  | .hbm, ⟨120, _⟩ => ⟨S3300000x2, .f32⟩
  | .hbm, ⟨121, _⟩ => ⟨S_, .f32⟩
  | .hbm, ⟨122, _⟩ => ⟨S100000x2, .f32⟩
  | .hbm, ⟨123, _⟩ => ⟨S3300000x1, .i32⟩
  | .hbm, ⟨124, _⟩ => ⟨S100000x2, .f32⟩
  | .hbm, ⟨125, _⟩ => ⟨S1x2, .f32⟩
  | .hbm, ⟨126, _⟩ => ⟨S100000x2, .f32⟩
  | .hbm, ⟨127, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.ColumnBroadcast.lean ====
/-
  Two small facts about arrays read at an index, shared by the three per-region modules.

  * A column [a, 1] broadcast along its unit axis to [a, b] reads, at (p, c), the column's entry in row p: the
    broadcast repeats each row's one value across the b columns.
  * The all-zero offset of a rank-2 and of a rank-1 rectangle, as a constant function (the form the library's
    whole-buffer load and store lemmas take).
-/
import Idealize.ShloMosaic.Lib.ValueLayout
import Idealize.ShloMosaic.Lib.Pipeline.Value

noncomputable section

namespace Cert.Gcn

open Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offset of a rank-2 rectangle is the constant zero. -/
theorem zeroOffset2 : (![0, 0] : Fin 2 → Nat) = fun _ => 0 := funext fun a => by fin_cases a <;> rfl

/-- The zero offset of a rank-1 rectangle is the constant zero. -/
theorem zeroOffset1 : (![0] : Fin 1 → Nat) = fun _ => 0 := funext fun a => by fin_cases a; rfl

end Cert.Gcn

end
-- ==== Proof.Stages.lean ====
/-
  The three dense stages of a two-layer graph convolution, each as ONE function of whole arrays over the
  extended reals, index by index. Rows are the 100000 nodes; `d` is the column [100000, 1] of per-node
  normalisers deg^(-1/2).

  * `scaledProduct x w d`  — (x · w)[r, f] · d[r]: the feature product, each row scaled by its node's normaliser.
  * `hiddenStage a d b w`  — ((max (a[r, ·] · d[r] + b) 0) · w)[r, f] · d[r]: the aggregated first layer scaled,
    biased and rectified, multiplied into the second layer's weights, the row scaled again.
  * `outputStage a d b`    — a[r, f] · d[r] + b[f]: the aggregated second layer scaled and biased.

  No program is imported: the shapes are spelt literally.
-/
import Idealize.ShloMosaic.PureOps.Ideal
import Idealize.ShloMosaic.Lib.ValueIdx

noncomputable section

open scoped BigOperators

namespace Cert.Gcn

open Idealize.ShloMosaic Idealize.ShloMosaic.ValueIdx

/-- (x · w)[r, f] · d[r, 0] over x : [100000, 128], w : [128, 16], d : [100000, 1]. -/
def scaledProduct (x : (⟨2, ![100000, 128]⟩ : Shape).Idx → EReal) (w : (⟨2, ![128, 16]⟩ : Shape).Idx → EReal)
    (d : (⟨2, ![100000, 1]⟩ : Shape).Idx → EReal) : (⟨2, ![100000, 16]⟩ : Shape).Idx → EReal :=
  fun i => (∑ k : Fin 128, x (ix2 (i 0) k) * w (ix2 k (i 1))) * d (ix2 (i 0) (0 : Fin 1))

/-- ((max (a[r, k] · d[r, 0] + b[k]) 0) · w)[r, f] · d[r, 0] over a : [100000, 16], d : [100000, 1], b : [16],
    w : [16, 2]. -/
def hiddenStage (a : (⟨2, ![100000, 16]⟩ : Shape).Idx → EReal) (d : (⟨2, ![100000, 1]⟩ : Shape).Idx → EReal)
    (b : (⟨1, ![16]⟩ : Shape).Idx → EReal) (w : (⟨2, ![16, 2]⟩ : Shape).Idx → EReal) :
    (⟨2, ![100000, 2]⟩ : Shape).Idx → EReal :=
  fun i => (∑ k : Fin 16, max (a (ix2 (i 0) k) * d (ix2 (i 0) (0 : Fin 1)) + b (ix1 k)) 0 * w (ix2 k (i 1)))
    * d (ix2 (i 0) (0 : Fin 1))

/-- a[r, f] · d[r, 0] + b[f] over a : [100000, 2], d : [100000, 1], b : [2]. -/
def outputStage (a : (⟨2, ![100000, 2]⟩ : Shape).Idx → EReal) (d : (⟨2, ![100000, 1]⟩ : Shape).Idx → EReal)
    (b : (⟨1, ![2]⟩ : Shape).Idx → EReal) : (⟨2, ![100000, 2]⟩ : Shape).Idx → EReal :=
  fun i => a (ix2 (i 0) (i 1)) * d (ix2 (i 0) (0 : Fin 1)) + b (ix1 (i 1))

end Cert.Gcn

end
-- ==== Proof.RegionScaledProduct.lean ====
/-
  The first region (the matmul-and-scale kernel) as ONE function of whole arrays.

  The region runs over 20 grid points. Point `t` is handed rows 5000·t … 5000·t + 4999 of the features [100000, 128]
  and of the normaliser column [100000, 1], and the whole weight matrix [128, 16]; it stores, into the same rows of
  the result [100000, 16], entry (p, f) ↦ (∑ₖ x[p, k] · w[k, f]) · d[p]: the product into a zero accumulator, the
  narrowing of the operands the identity on the extended reals. An entry of the result depends only on its own row
  of the features and of the normalisers, the 20 row blocks tile the 100000 rows, and the result array after the
  region is `Cert.Gcn.scaledProduct` of the three arrays as the region finds them.

  The steps: the matrix product at an entry as a sum over the 128 contracted coordinates (`product_apply`); the
  body's arithmetic at an entry of a block (`payload_apply`); which rows each window's block at a point is
  (`blockIndex`, decided over the grid, and the three block reads); what point `t` writes back is block `t` of the
  whole-array function (`flushed_eq`); every row lies in the block of point ⌊row / 5000⌋ (`cover`); hence the array
  (`scaledProduct_array`).
-/
import proofs.«138800_j29867202576799_2_alg».proof.Proof.Gen.KernelIdeal.Frame
import proofs.«138800_j29867202576799_2_alg».proof.Proof.ColumnBroadcast
import proofs.«138800_j29867202576799_2_alg».proof.Proof.Stages
import Idealize.ShloMosaic.Lib.Pipeline.Value
import Idealize.ShloMosaic.PureOps.Ideal.Laws

noncomputable section

namespace Cert.KernelIdeal.RegionScaledProduct

open Cert.KernelIdeal Cert.KernelIdeal.Gen Idealize.ShloMosaic Idealize.ShloMosaic.TcCoe Idealize.SL.Sem
open Idealize.ShloMosaic.Pipeline (Dat)
open Idealize.ShloMosaic.ValueIdx
open Cert.Gcn (broadcastTo_a1_ab_apply zeroOffset2 zeroOffset1)

variable (V : (c : Dev nD) → (b : Ref sig .tc) → Buf (Elt Ideal) ((c : Thread nD τ).loc b))

/-! ## The body's arithmetic at an entry of a block -/

/-- The left operand's index at output entry `j` and contracted coordinate `k`: row `j₀`, column `k`. -/
theorem lhs_row (j : S5000x16.Idx) (q : dot_S5000x128_S128x16_S5000x16_1_0_0_1_n_n.contr.Idx) :
    (dot_S5000x128_S128x16_S5000x16_1_0_0_1_n_n.lhsIdx j q 0).val = (j 0).val := by
  unfold DotDims.lhsIdx
  rw [dif_neg (show ¬(0 : Fin S5000x128.rank) ∈ dot_S5000x128_S128x16_S5000x16_1_0_0_1_n_n.lhsBatch by decide),
    dif_pos (show (0 : Fin S5000x128.rank) ∈ dot_S5000x128_S128x16_S5000x16_1_0_0_1_n_n.lhsNonContracting by decide)]
  rfl
theorem lhs_col (j : S5000x16.Idx) (q : dot_S5000x128_S128x16_S5000x16_1_0_0_1_n_n.contr.Idx) :
    (dot_S5000x128_S128x16_S5000x16_1_0_0_1_n_n.lhsIdx j q 1).val = (q ⟨0, by decide⟩).val :=
  dot_S5000x128_S128x16_S5000x16_1_0_0_1_n_n.lhsIdx_val_of_single rfl j q
/-- The right operand's index there: row `k`, column `j₁`. -/
theorem rhs_row (j : S5000x16.Idx) (q : dot_S5000x128_S128x16_S5000x16_1_0_0_1_n_n.contr.Idx) :
    (dot_S5000x128_S128x16_S5000x16_1_0_0_1_n_n.rhsIdx j q 0).val = (q ⟨0, by decide⟩).val :=
  dot_S5000x128_S128x16_S5000x16_1_0_0_1_n_n.rhsIdx_val_of_single rfl j q
theorem rhs_col (j : S5000x16.Idx) (q : dot_S5000x128_S128x16_S5000x16_1_0_0_1_n_n.contr.Idx) :
    (dot_S5000x128_S128x16_S5000x16_1_0_0_1_n_n.rhsIdx j q 1).val = (j 1).val := by
  unfold DotDims.rhsIdx
  rw [dif_neg (show ¬(1 : Fin S128x16.rank) ∈ dot_S5000x128_S128x16_S5000x16_1_0_0_1_n_n.rhsBatch by decide),
    dif_pos (show (1 : Fin S128x16.rank) ∈ dot_S5000x128_S128x16_S5000x16_1_0_0_1_n_n.rhsNonContracting by decide)]
  rfl

/-- The matrix product into the zero accumulator, at entry (p, f): the sum over the 128 contracted coordinates of
    l[p, k] · r[k, f]. -/
theorem product_apply (l : FVec Ideal S5000x128 .bf16) (r : FVec Ideal S128x16 .bf16) (p : Fin 5000) (f : Fin 16) :
    matmul dot_S5000x128_S128x16_S5000x16_1_0_0_1_n_n none l r (constant (F := Ideal) S5000x16 .f32 0x00000000#32) (ix2 p f)
      = ∑ k : Fin 128, l (ix2 p k) * r (ix2 k f) := by
  show FloatOps.matmul dot_S5000x128_S128x16_S5000x16_1_0_0_1_n_n none l r (constant (F := Ideal) S5000x16 .f32 0x00000000#32) (ix2 p f) = _
  rw [Ideal.matmul_constant_zero_apply,
    ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p f)
      ((contrEquiv1 dot_S5000x128_S128x16_S5000x16_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x16_S5000x16_1_0_0_1_n_n.rhsIdx (ix2 p f)
      ((contrEquiv1 dot_S5000x128_S128x16_S5000x16_1_0_0_1_n_n 128 rfl rfl).symm k) = ix2 k f :=
    funext fun a => Fin.ext (by
      match a with
      | ⟨0, _⟩ => exact (rhs_row _ _).trans hk
      | ⟨1, _⟩ => exact rhs_col _ _)
  rw [el, er]

/-- Entry (p, f) of what the body stores: row p of the feature block times column f of the weights, times the
    normaliser of row p. It depends on row p of the two row-blocked inputs only. -/
theorem payload_apply (x0 : Vec Ideal S5000x128 .f32) (x1 : Vec Ideal S128x16 .f32) (x2 : Vec Ideal S5000x1 .f32) (j : S5000x16.Idx) :
    k0_pay1 x0 x1 x2 j = (∑ k : Fin 128, x0 (ix2 (j 0) k) * x1 (ix2 k (j 1))) * x2 (ix2 (j 0) (0 : Fin 1)) := by
  obtain ⟨p, f, rfl⟩ : ∃ (p : Fin 5000) (f : Fin 16), j = ix2 p f := ⟨j 0, j 1, eq_ix2 j⟩
  unfold k0_pay1
  simp only [shapeCast_self]
  rw [mulf_apply, broadcastTo_a1_ab_apply, product_apply]
  rfl

/-! ## Which rows a point's blocks are -/

/-- The printed index maps, decided over the 20 points: point `t` takes row block `t` of each row-blocked array
    (the features, the normalisers, the result) and the whole weight matrix. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (y₀, y₁) of point `t`'s block of the features is entry (5000·t + y₀, y₁) of the array. -/
theorem feature_block_apply (c : Dev nD) (t : Fin cfg0.N) (y : S5000x128.Idx) (k : S100000x128.Idx)
    (h0 : (k 0).val = t.val * 5000 + (y 0).val) (h1 : (k 1).val = (y 1).val) :
    (iblk0 V c 0 t : Vec Ideal S5000x128 .f32) y = (V c main_arg0 : S100000x128.Idx → EReal) k := by
  obtain ⟨e0, e1, -⟩ := blockIndex t
  unfold iblk0
  rw [View.read_apply]
  show V c main_arg0 _ = V c main_arg0 _
  refine congrArg _ (funext fun a => Fin.ext ?_)
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- Every point's block of the weights is the whole weight matrix. -/
theorem weight_block_apply (c : Dev nD) (t : Fin cfg0.N) (y : S128x16.Idx) (k : S128x16.Idx)
    (h0 : (k 0).val = (y 0).val) (h1 : (k 1).val = (y 1).val) :
    (iblk0 V c 1 t : Vec Ideal S128x16 .f32) y = (V c main_arg2 : S128x16.Idx → EReal) k := by
  obtain ⟨-, -, e2, e3, -⟩ := blockIndex t
  unfold iblk0
  rw [View.read_apply]
  show V c main_arg2 _ = V c main_arg2 _
  refine congrArg _ (funext fun a => Fin.ext ?_)
  match a with
  | ⟨0, _⟩ => show win0_1.index t (0 : Fin 2) * 128 + 1 * (y 0).val = (k 0).val; omega
  | ⟨1, _⟩ => show win0_1.index t (1 : Fin 2) * 16 + 1 * (y 1).val = (k 1).val; omega

/-- Entry (y₀, 0) of point `t`'s block of the normalisers is entry (5000·t + y₀, 0) of the column. -/
theorem normaliser_block_apply (c : Dev nD) (t : Fin cfg0.N) (y : S5000x1.Idx) (k : S100000x1.Idx)
    (h0 : (k 0).val = t.val * 5000 + (y 0).val) :
    (iblk0 V c 2 t : Vec Ideal S5000x1 .f32) y = (V c main_v17 : S100000x1.Idx → EReal) k := by
  obtain ⟨-, -, -, -, e4, e5, -⟩ := blockIndex t
  unfold iblk0
  rw [View.read_apply]
  show V c main_v17 _ = V c main_v17 _
  refine congrArg _ (funext fun a => Fin.ext ?_)
  match a with
  | ⟨0, _⟩ => show win0_2.index t (0 : Fin 2) * 5000 + 1 * (y 0).val = (k 0).val; omega
  | ⟨1, _⟩ =>
    show win0_2.index t (1 : Fin 2) * 1 + 1 * (y 1).val = (k 1).val
    have hy : (y 1).val < 1 := (y 1).isLt
    have hk : (k 1).val < 1 := (k 1).isLt
    omega

/-- An entry of the block point `t` stores, set beside the whole-array function at the entry of the array it lands
    on: row `j₀` of the block is row 5000·t + j₀ of every row-blocked array. -/
theorem block_entry (c : Dev nD) (t : Fin cfg0.N) (j : S5000x16.Idx) (i : S100000x16.Idx)
    (h0 : (i 0).val = t.val * 5000 + (j 0).val) (h1 : (i 1).val = (j 1).val) :
    k0_pay1 (iblk0 V c 0 t) (iblk0 V c 1 t) (iblk0 V c 2 t) j
      = Cert.Gcn.scaledProduct (V c main_arg0) (V c main_arg2) (V c main_v17) i := by
  refine (payload_apply (iblk0 V c 0 t) (iblk0 V c 1 t) (iblk0 V c 2 t) j).trans ?_
  unfold Cert.Gcn.scaledProduct
  rw [normaliser_block_apply V c t (ix2 (j 0) (0 : Fin 1)) (ix2 (i 0) (0 : Fin 1)) h0]
  refine congrArg (· * _) (Finset.sum_congr rfl fun k _ => ?_)
  rw [feature_block_apply V c t (ix2 (j 0) k) (ix2 (i 0) k) h0 rfl,
    weight_block_apply V c t (ix2 k (j 1)) (ix2 k (i 1)) rfl h1]

/-! ## What a point writes back, and the whole array -/

/-- WHAT POINT `t` WRITES BACK is block `t` of the scaled product of the arrays as the region finds them. -/
theorem flushed_eq (c : Dev nD) (t : Fin cfg0.N) :
    (dat0 (F := Ideal) V c).flushed 3 t = ((cfg0.win 3).blk t).view.read (Elt Ideal)
      (Cert.Gcn.scaledProduct (V c main_arg0) (V c main_arg2) (V c main_v17)) := by
  show (cfg0.win 3).cut (grid0.coords t) ((dat0 V c).after 3 t) = _
  rw [after0_3]
  unfold out0_3
  rw [View.canon_unit_zero zeroOffset2]
  simp only [View.ld_unit_zero (S := S5000x128) zeroOffset2, View.ld_unit_zero (S := S128x16) zeroOffset2,
    View.ld_unit_zero (S := S5000x1) zeroOffset2]
  obtain ⟨-, -, -, -, -, -, e6, e7⟩ := blockIndex t
  funext j
  have hi0 : ((((cfg0.win 3).blk t).view.emb j) 0).val = t.val * 5000 + (j 0).val := by
    show win0_3.index t (0 : Fin 2) * 5000 + 1 * (j 0).val = _; omega
  have hi1 : ((((cfg0.win 3).blk t).view.emb j) 1).val = (j 1).val := by
    show win0_3.index t (1 : Fin 2) * 16 + 1 * (j 1).val = _; omega
  exact block_entry V c t j (((cfg0.win 3).blk t).view.emb j) hi0 hi1

/-- An index of the result array is in point `t`'s block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v18).slice (win0_3.rect t)).set ↔ _
  rw [View.set_slice_whole, Rect.mem_set_unit]
  exact Iff.rfl

/-- Every entry of the result array is written: row `r` by point ⌊r / 5000⌋. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have ht : (Fin.cast N_0.symm ⟨(i 0).val / 5000, by omega⟩ : Fin cfg0.N).val = (i 0).val / 5000 := rfl
  obtain ⟨-, -, -, -, -, -, e6, e7⟩ := blockIndex (Fin.cast N_0.symm ⟨(i 0).val / 5000, by omega⟩)
  refine ⟨Fin.cast N_0.symm ⟨(i 0).val / 5000, by omega⟩, flush0_3 _, ?_⟩
  rw [mem_blk]
  intro a
  match a with
  | ⟨0, _⟩ =>
    show win0_3.index _ (0 : Fin 2) * 5000 ≤ (i 0).val ∧ (i 0).val < win0_3.index _ (0 : Fin 2) * 5000 + 5000
    rw [e6, ht]; omega
  | ⟨1, _⟩ =>
    show win0_3.index _ (1 : Fin 2) * 16 ≤ (i 1).val ∧ (i 1).val < win0_3.index _ (1 : Fin 2) * 16 + 16
    rw [e7]; omega

/-- THE RESULT ARRAY after the region is the scaled product of the arrays as the region finds them. -/
theorem scaledProduct_array (c : Dev nD) :
    (dat0 (F := Ideal) V c).arrAt 3 cfg0.N = Cert.Gcn.scaledProduct (V c main_arg0) (V c main_arg2) (V c main_v17) :=
  (dat0 (F := Ideal) V c).arrAt_eq_of_cover 3 (Cert.Gcn.scaledProduct (V c main_arg0) (V c main_arg2) (V c main_v17))
    (fun t _ => flushed_eq V c t) cover

end Cert.KernelIdeal.RegionScaledProduct

end
-- ==== Proof.RegionHidden.lean ====
/-
  The second region (the first layer's epilogue fused with the second layer's matmul) as ONE function of whole arrays.

  The region runs over 20 grid points. Point `t` is handed rows 5000·t … 5000·t + 4999 of the aggregated first layer
  [100000, 16] and of the normaliser column [100000, 1], and the whole bias [16] and weight matrix [16, 2]; it stores,
  into the same rows of the result [100000, 2], entry (p, f) ↦ (∑ₖ max(a[p, k] · d[p] + b[k], 0) · w[k, f]) · d[p]:
  the row scaled, biased and rectified, multiplied into the weights (a zero accumulator, the narrowing of the operands
  the identity on the extended reals), the row scaled again. An entry of the result depends only on its own row of the
  two row-blocked inputs, the 20 row blocks tile the 100000 rows, and the result array after the region is
  `Cert.Gcn.hiddenStage` of the four arrays as the region finds them.

  The steps: the matrix product at an entry as a sum over the 16 contracted coordinates (`product_apply`); the body's
  arithmetic at an entry of a block (`payload_apply`); which rows each window's block at a point is (`blockIndex`,
  decided over the grid, and the four block reads); what point `t` writes back is block `t` of the whole-array function
  (`flushed_eq`); every row lies in the block of point ⌊row / 5000⌋ (`cover`); hence the array (`hiddenStage_array`).
-/
import proofs.«138800_j29867202576799_2_alg».proof.Proof.Gen.KernelIdeal.Frame
import proofs.«138800_j29867202576799_2_alg».proof.Proof.ColumnBroadcast
import proofs.«138800_j29867202576799_2_alg».proof.Proof.Stages
import Idealize.ShloMosaic.Lib.Pipeline.Value
import Idealize.ShloMosaic.PureOps.Ideal.Laws

noncomputable section

namespace Cert.KernelIdeal.RegionHidden

open Cert.KernelIdeal Cert.KernelIdeal.Gen Idealize.ShloMosaic Idealize.ShloMosaic.TcCoe Idealize.SL.Sem
open Idealize.ShloMosaic.Pipeline (Dat)
open Idealize.ShloMosaic.ValueIdx
open Cert.Gcn (broadcastTo_a1_ab_apply zeroOffset2 zeroOffset1)

variable (V : (c : Dev nD) → (b : Ref sig .tc) → Buf (Elt Ideal) ((c : Thread nD τ).loc b))

/-! ## The body's arithmetic at an entry of a block -/

/-- The left operand's index at output entry `j` and contracted coordinate `k`: row `j₀`, column `k`. -/
theorem lhs_row (j : S5000x2.Idx) (q : dot_S5000x16_S16x2_S5000x2_1_0_0_1_n_n.contr.Idx) :
    (dot_S5000x16_S16x2_S5000x2_1_0_0_1_n_n.lhsIdx j q 0).val = (j 0).val := by
  unfold DotDims.lhsIdx
  rw [dif_neg (show ¬(0 : Fin S5000x16.rank) ∈ dot_S5000x16_S16x2_S5000x2_1_0_0_1_n_n.lhsBatch by decide),
    dif_pos (show (0 : Fin S5000x16.rank) ∈ dot_S5000x16_S16x2_S5000x2_1_0_0_1_n_n.lhsNonContracting by decide)]
  rfl
theorem lhs_col (j : S5000x2.Idx) (q : dot_S5000x16_S16x2_S5000x2_1_0_0_1_n_n.contr.Idx) :
    (dot_S5000x16_S16x2_S5000x2_1_0_0_1_n_n.lhsIdx j q 1).val = (q ⟨0, by decide⟩).val :=
  dot_S5000x16_S16x2_S5000x2_1_0_0_1_n_n.lhsIdx_val_of_single rfl j q
/-- The right operand's index there: row `k`, column `j₁`. -/
theorem rhs_row (j : S5000x2.Idx) (q : dot_S5000x16_S16x2_S5000x2_1_0_0_1_n_n.contr.Idx) :
    (dot_S5000x16_S16x2_S5000x2_1_0_0_1_n_n.rhsIdx j q 0).val = (q ⟨0, by decide⟩).val :=
  dot_S5000x16_S16x2_S5000x2_1_0_0_1_n_n.rhsIdx_val_of_single rfl j q
theorem rhs_col (j : S5000x2.Idx) (q : dot_S5000x16_S16x2_S5000x2_1_0_0_1_n_n.contr.Idx) :
    (dot_S5000x16_S16x2_S5000x2_1_0_0_1_n_n.rhsIdx j q 1).val = (j 1).val := by
  unfold DotDims.rhsIdx
  rw [dif_neg (show ¬(1 : Fin S16x2.rank) ∈ dot_S5000x16_S16x2_S5000x2_1_0_0_1_n_n.rhsBatch by decide),
    dif_pos (show (1 : Fin S16x2.rank) ∈ dot_S5000x16_S16x2_S5000x2_1_0_0_1_n_n.rhsNonContracting by decide)]
  rfl

/-- The matrix product into the zero accumulator, at entry (p, f): the sum over the 16 contracted coordinates of
    l[p, k] · r[k, f]. -/
theorem product_apply (l : FVec Ideal S5000x16 .bf16) (r : FVec Ideal S16x2 .bf16) (p : Fin 5000) (f : Fin 2) :
    matmul dot_S5000x16_S16x2_S5000x2_1_0_0_1_n_n none l r (constant (F := Ideal) S5000x2 .f32 0x00000000#32) (ix2 p f)
      = ∑ k : Fin 16, l (ix2 p k) * r (ix2 k f) := by
  show FloatOps.matmul dot_S5000x16_S16x2_S5000x2_1_0_0_1_n_n none l r (constant (F := Ideal) S5000x2 .f32 0x00000000#32) (ix2 p f) = _
  rw [Ideal.matmul_constant_zero_apply,
    ← Equiv.sum_comp (contrEquiv1 dot_S5000x16_S16x2_S5000x2_1_0_0_1_n_n 16 rfl rfl).symm]
  refine Finset.sum_congr rfl fun k _ => ?_
  have hk := contrEquiv1_symm_val dot_S5000x16_S16x2_S5000x2_1_0_0_1_n_n 16 rfl rfl k
  have el : dot_S5000x16_S16x2_S5000x2_1_0_0_1_n_n.lhsIdx (ix2 p f)
      ((contrEquiv1 dot_S5000x16_S16x2_S5000x2_1_0_0_1_n_n 16 rfl rfl).symm k) = ix2 p k :=
    funext fun a => Fin.ext (by
      match a with
      | ⟨0, _⟩ => exact lhs_row _ _
      | ⟨1, _⟩ => exact (lhs_col _ _).trans hk)
  have er : dot_S5000x16_S16x2_S5000x2_1_0_0_1_n_n.rhsIdx (ix2 p f)
      ((contrEquiv1 dot_S5000x16_S16x2_S5000x2_1_0_0_1_n_n 16 rfl rfl).symm k) = ix2 k f :=
    funext fun a => Fin.ext (by
      match a with
      | ⟨0, _⟩ => exact (rhs_row _ _).trans hk
      | ⟨1, _⟩ => exact rhs_col _ _)
  rw [el, er]

/-- The rectified row at (p, k): the aggregated entry scaled by the row's normaliser, biased, and cut below at zero. -/
theorem rectified_apply (x0 : Vec Ideal S5000x16 .f32) (x1 : Vec Ideal S5000x1 .f32) (x2 : Vec Ideal S16 .f32) (p : Fin 5000) (k : Fin 16) :
    (maximumf (addf (mulf x0 (broadcastTo S5000x16 x1 broadcasts_S5000x1_S5000x16))
        (broadcastTo S5000x16 (shapeCast S1x16 x2 shapeCasts_S16_S1x16) broadcasts_S1x16_S5000x16))
      (broadcast S5000x16 (Scalar.ofBits (F := Ideal) .f32 0x00000000#32)) : FVec Ideal S5000x16 .f32) (ix2 p k)
      = max (x0 (ix2 p k) * x1 (ix2 p (0 : Fin 1)) + x2 (ix1 k)) 0 := by
  rw [maximumf_apply, addf_apply, mulf_apply, broadcastTo_a1_ab_apply, broadcastTo_1b_ab_apply, shapeCast_a_1a_apply,
    broadcast_apply]
  exact congrArg (max _) Ideal.ofBits_zero_f32

/-- Entry (p, f) of what the body stores: the rectified row p times column f of the weights, times the normaliser of
    row p. It depends on row p of the two row-blocked inputs only (the normaliser block is read twice, the same). -/
theorem payload_apply (x0 : Vec Ideal S5000x16 .f32) (x1 : Vec Ideal S5000x1 .f32) (x2 : Vec Ideal S16 .f32)
    (x3 : Vec Ideal S16x2 .f32) (j : S5000x2.Idx) :
    k1_pay1 x0 x1 x2 x3 x1 j
      = (∑ k : Fin 16, max (x0 (ix2 (j 0) k) * x1 (ix2 (j 0) (0 : Fin 1)) + x2 (ix1 k)) 0 * x3 (ix2 k (j 1)))
        * x1 (ix2 (j 0) (0 : Fin 1)) := by
  obtain ⟨p, f, rfl⟩ : ∃ (p : Fin 5000) (f : Fin 2), j = ix2 p f := ⟨j 0, j 1, eq_ix2 j⟩
  unfold k1_pay1
  simp only [shapeCast_self]
  rw [mulf_apply, broadcastTo_a1_ab_apply, product_apply]
  refine congrArg (· * _) (Finset.sum_congr rfl fun k _ => ?_)
  rw [truncf_apply, truncf_apply, rectified_apply]

/-! ## Which rows a point's blocks are -/

/-- The printed index maps, decided over the 20 points: point `t` takes row block `t` of each row-blocked array
    (the aggregated layer, the normalisers, the result) and the whole bias vector and weight matrix. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (y₀, y₁) of point `t`'s block of the aggregated layer is entry (5000·t + y₀, y₁) of the array. -/
theorem aggregated_block_apply (c : Dev nD) (t : Fin cfg1.N) (y : S5000x16.Idx) (k : S100000x16.Idx)
    (h0 : (k 0).val = t.val * 5000 + (y 0).val) (h1 : (k 1).val = (y 1).val) :
    (iblk1 V c 0 t : Vec Ideal S5000x16 .f32) y = (V c main_v28 : S100000x16.Idx → EReal) k := by
  obtain ⟨e0, e1, -⟩ := blockIndex t
  unfold iblk1
  rw [View.read_apply]
  show V c main_v28 _ = V c main_v28 _
  refine congrArg _ (funext fun a => Fin.ext ?_)
  match a with
  | ⟨0, _⟩ => show win1_0.index t (0 : Fin 2) * 5000 + 1 * (y 0).val = (k 0).val; omega
  | ⟨1, _⟩ => show win1_0.index t (1 : Fin 2) * 16 + 1 * (y 1).val = (k 1).val; omega

/-- Entry (y₀, 0) of point `t`'s block of the normalisers is entry (5000·t + y₀, 0) of the column. -/
theorem normaliser_block_apply (c : Dev nD) (t : Fin cfg1.N) (y : S5000x1.Idx) (k : S100000x1.Idx)
    (h0 : (k 0).val = t.val * 5000 + (y 0).val) :
    (iblk1 V c 1 t : Vec Ideal S5000x1 .f32) y = (V c main_v17 : S100000x1.Idx → EReal) k := by
  obtain ⟨-, -, e2, e3, -⟩ := blockIndex t
  unfold iblk1
  rw [View.read_apply]
  show V c main_v17 _ = V c main_v17 _
  refine congrArg _ (funext fun a => Fin.ext ?_)
  match a with
  | ⟨0, _⟩ => show win1_1.index t (0 : Fin 2) * 5000 + 1 * (y 0).val = (k 0).val; omega
  | ⟨1, _⟩ =>
    show win1_1.index t (1 : Fin 2) * 1 + 1 * (y 1).val = (k 1).val
    have hy : (y 1).val < 1 := (y 1).isLt
    have hk : (k 1).val < 1 := (k 1).isLt
    omega

/-- Every point's block of the bias is the whole bias vector. -/
theorem bias_block_apply (c : Dev nD) (t : Fin cfg1.N) (y : S16.Idx) (k : S16.Idx) (h0 : (k 0).val = (y 0).val) :
    (iblk1 V c 2 t : Vec Ideal S16 .f32) y = (V c main_arg3 : S16.Idx → EReal) k := by
  obtain ⟨-, -, -, -, e4, -⟩ := blockIndex t
  unfold iblk1
  rw [View.read_apply]
  show V c main_arg3 _ = V c main_arg3 _
  refine congrArg _ (funext fun a => Fin.ext ?_)
  match a with
  | ⟨0, _⟩ => show win1_2.index t (0 : Fin 1) * 16 + 1 * (y 0).val = (k 0).val; omega

/-- Every point's block of the weights is the whole weight matrix. -/
theorem weight_block_apply (c : Dev nD) (t : Fin cfg1.N) (y : S16x2.Idx) (k : S16x2.Idx)
    (h0 : (k 0).val = (y 0).val) (h1 : (k 1).val = (y 1).val) :
    (iblk1 V c 3 t : Vec Ideal S16x2 .f32) y = (V c main_arg4 : S16x2.Idx → EReal) k := by
  obtain ⟨-, -, -, -, -, e5, e6, -⟩ := blockIndex t
  unfold iblk1
  rw [View.read_apply]
  show V c main_arg4 _ = V c main_arg4 _
  refine congrArg _ (funext fun a => Fin.ext ?_)
  match a with
  | ⟨0, _⟩ => show win1_3.index t (0 : Fin 2) * 16 + 1 * (y 0).val = (k 0).val; omega
  | ⟨1, _⟩ => show win1_3.index t (1 : Fin 2) * 2 + 1 * (y 1).val = (k 1).val; omega

/-- An entry of the block point `t` stores, set beside the whole-array function at the entry of the array it lands
    on: row `j₀` of the block is row 5000·t + j₀ of every row-blocked array. -/
theorem block_entry (c : Dev nD) (t : Fin cfg1.N) (j : S5000x2.Idx) (i : S100000x2.Idx)
    (h0 : (i 0).val = t.val * 5000 + (j 0).val) (h1 : (i 1).val = (j 1).val) :
    k1_pay1 (iblk1 V c 0 t) (iblk1 V c 1 t) (iblk1 V c 2 t) (iblk1 V c 3 t) (iblk1 V c 1 t) j
      = Cert.Gcn.hiddenStage (V c main_v28) (V c main_v17) (V c main_arg3) (V c main_arg4) i := by
  refine (payload_apply (iblk1 V c 0 t) (iblk1 V c 1 t) (iblk1 V c 2 t) (iblk1 V c 3 t) j).trans ?_
  unfold Cert.Gcn.hiddenStage
  rw [normaliser_block_apply V c t (ix2 (j 0) (0 : Fin 1)) (ix2 (i 0) (0 : Fin 1)) h0]
  refine congrArg (· * _) (Finset.sum_congr rfl fun k _ => ?_)
  rw [aggregated_block_apply V c t (ix2 (j 0) k) (ix2 (i 0) k) h0 rfl,
    bias_block_apply V c t (ix1 k) (ix1 k) rfl,
    weight_block_apply V c t (ix2 k (j 1)) (ix2 k (i 1)) rfl h1]

/-! ## What a point writes back, and the whole array -/

/-- WHAT POINT `t` WRITES BACK is block `t` of the hidden stage of the arrays as the region finds them. -/
theorem flushed_eq (c : Dev nD) (t : Fin cfg1.N) :
    (dat1 (F := Ideal) V c).flushed 4 t = ((cfg1.win 4).blk t).view.read (Elt Ideal)
      (Cert.Gcn.hiddenStage (V c main_v28) (V c main_v17) (V c main_arg3) (V c main_arg4)) := by
  show (cfg1.win 4).cut (grid1.coords t) ((dat1 V c).after 4 t) = _
  rw [after1_4]
  unfold out1_4
  rw [View.canon_unit_zero zeroOffset2]
  simp only [View.ld_unit_zero (S := S5000x16) zeroOffset2, View.ld_unit_zero (S := S5000x1) zeroOffset2,
    View.ld_unit_zero (S := S16) zeroOffset1, View.ld_unit_zero (S := S16x2) zeroOffset2]
  obtain ⟨-, -, -, -, -, -, -, e7, e8⟩ := blockIndex t
  funext j
  have hi0 : ((((cfg1.win 4).blk t).view.emb j) 0).val = t.val * 5000 + (j 0).val := by
    show win1_4.index t (0 : Fin 2) * 5000 + 1 * (j 0).val = _; omega
  have hi1 : ((((cfg1.win 4).blk t).view.emb j) 1).val = (j 1).val := by
    show win1_4.index t (1 : Fin 2) * 2 + 1 * (j 1).val = _; omega
  exact block_entry V c t j (((cfg1.win 4).blk t).view.emb j) hi0 hi1

/-- An index of the result array is in point `t`'s block iff each coordinate is in the block's range on its axis. -/
theorem mem_blk (t : Fin cfg1.N) (i : S100000x2.Idx) :
    i ∈ ((cfg1.win 4).blk t).view.set ↔ ∀ a : Fin 2, win1_4.index t a * S5000x2.size a ≤ (i a).val
      ∧ (i a).val < win1_4.index t a * S5000x2.size a + S5000x2.size a := by
  show i ∈ ((View.whole main_v29).slice (win1_4.rect t)).set ↔ _
  rw [View.set_slice_whole, Rect.mem_set_unit]
  exact Iff.rfl

/-- Every entry of the result array is written: row `r` by point ⌊r / 5000⌋. -/
theorem cover (i : S100000x2.Idx) :
    ∃ t : Fin cfg1.N, (cfg1.win 4).flush t = true ∧ i ∈ ((cfg1.win 4).blk t).view.set := by
  have hi0 : (i 0).val < 100000 := (i 0).isLt
  have hi1 : (i 1).val < 2 := (i 1).isLt
  have ht : (Fin.cast N_1.symm ⟨(i 0).val / 5000, by omega⟩ : Fin cfg1.N).val = (i 0).val / 5000 := rfl
  obtain ⟨-, -, -, -, -, -, -, e7, e8⟩ := blockIndex (Fin.cast N_1.symm ⟨(i 0).val / 5000, by omega⟩)
  refine ⟨Fin.cast N_1.symm ⟨(i 0).val / 5000, by omega⟩, flush1_4 _, ?_⟩
  rw [mem_blk]
  intro a
  match a with
  | ⟨0, _⟩ =>
    show win1_4.index _ (0 : Fin 2) * 5000 ≤ (i 0).val ∧ (i 0).val < win1_4.index _ (0 : Fin 2) * 5000 + 5000
    rw [e7, ht]; omega
  | ⟨1, _⟩ =>
    show win1_4.index _ (1 : Fin 2) * 2 ≤ (i 1).val ∧ (i 1).val < win1_4.index _ (1 : Fin 2) * 2 + 2
    rw [e8]; omega

/-- THE RESULT ARRAY after the region is the hidden stage of the arrays as the region finds them. -/
theorem hiddenStage_array (c : Dev nD) :
    (dat1 (F := Ideal) V c).arrAt 4 cfg1.N
      = Cert.Gcn.hiddenStage (V c main_v28) (V c main_v17) (V c main_arg3) (V c main_arg4) :=
  (dat1 (F := Ideal) V c).arrAt_eq_of_cover 4
    (Cert.Gcn.hiddenStage (V c main_v28) (V c main_v17) (V c main_arg3) (V c main_arg4))
    (fun t _ => flushed_eq V c t) cover

end Cert.KernelIdeal.RegionHidden

end
-- ==== Proof.RegionOutput.lean ====
/-
  The third region (the bias-and-scale kernel) as ONE function of whole arrays.

  The region runs over 20 grid points. Point `t` is handed rows 5000·t … 5000·t + 4999 of the aggregated second
  layer [100000, 2] and of the normaliser column [100000, 1], and the whole bias vector [2]; it stores, into the same
  rows of the result, entry (p, q) ↦ a[p, q] · d[p] + b[q]. An entry of the result therefore depends only on its own
  row of the two row-blocked inputs, the 20 row blocks tile the 100000 rows, and the result array after the region
  is `Cert.Gcn.outputStage` of the three arrays as the region finds them.

  The steps: the body's arithmetic at an entry of a block (`payload_apply`); which rows each window's block at a
  point is (`blockIndex`, decided over the grid, and the three block reads); what point `t` writes back is block `t`
  of the whole-array function (`flushed_eq`); every row lies in the block of point ⌊row / 5000⌋ (`cover`); hence the
  array (`outputStage_array`).
-/
import proofs.«138800_j29867202576799_2_alg».proof.Proof.Gen.KernelIdeal.Frame
import proofs.«138800_j29867202576799_2_alg».proof.Proof.ColumnBroadcast
import proofs.«138800_j29867202576799_2_alg».proof.Proof.Stages
import Idealize.ShloMosaic.Lib.Pipeline.Value

noncomputable section

namespace Cert.KernelIdeal.RegionOutput

open Cert.KernelIdeal Cert.KernelIdeal.Gen Idealize.ShloMosaic Idealize.ShloMosaic.TcCoe Idealize.SL.Sem
open Idealize.ShloMosaic.Pipeline (Dat)
open Idealize.ShloMosaic.ValueIdx
open Cert.Gcn (broadcastTo_a1_ab_apply zeroOffset2 zeroOffset1)

variable (V : (c : Dev nD) → (b : Ref sig .tc) → Buf (Elt Ideal) ((c : Thread nD τ).loc b))

/-! ## The body's arithmetic at an entry of a block -/

/-- Entry (p, q) of what the body stores: the aggregated block's entry (p, q) times the normaliser of row p, plus
    the bias of column q. It depends on row p of the two row-blocked inputs only. -/
theorem payload_apply (x0 : Vec Ideal S5000x2 .f32) (x1 : Vec Ideal S5000x1 .f32) (x2 : Vec Ideal S2 .f32) (j : S5000x2.Idx) :
    k2_pay1 x0 x1 x2 j = x0 j * x1 (ix2 (j 0) (0 : Fin 1)) + x2 (ix1 (j 1)) := by
  obtain ⟨p, q, rfl⟩ : ∃ (p : Fin 5000) (q : Fin 2), j = ix2 p q := ⟨j 0, j 1, eq_ix2 j⟩
  unfold k2_pay1
  simp only [shapeCast_self]
  rw [addf_apply, mulf_apply, broadcastTo_a1_ab_apply, broadcastTo_1b_ab_apply, shapeCast_a_1a_apply]

/-! ## Which rows a point's blocks are -/

/-- The printed index maps, decided over the 20 points: point `t` takes row block `t` of each row-blocked array
    (the aggregated layer, the normalisers, the result) and the whole bias vector. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Entry (y₀, y₁) of point `t`'s block of the aggregated layer is entry (5000·t + y₀, y₁) of the array. -/
theorem aggregated_block_apply (c : Dev nD) (t : Fin cfg2.N) (y : S5000x2.Idx) (k : S100000x2.Idx)
    (h0 : (k 0).val = t.val * 5000 + (y 0).val) (h1 : (k 1).val = (y 1).val) :
    (iblk2 V c 0 t : Vec Ideal S5000x2 .f32) y = (V c main_v39 : S100000x2.Idx → EReal) k := by
  obtain ⟨e0, e1, -⟩ := blockIndex t
  unfold iblk2
  rw [View.read_apply]
  show V c main_v39 _ = V c main_v39 _
  refine congrArg _ (funext fun a => Fin.ext ?_)
  match a with
  | ⟨0, _⟩ => show win2_0.index t (0 : Fin 2) * 5000 + 1 * (y 0).val = (k 0).val; omega
  | ⟨1, _⟩ => show win2_0.index t (1 : Fin 2) * 2 + 1 * (y 1).val = (k 1).val; omega

/-- Entry (y₀, 0) of point `t`'s block of the normalisers is entry (5000·t + y₀, 0) of the column. -/
theorem normaliser_block_apply (c : Dev nD) (t : Fin cfg2.N) (y : S5000x1.Idx) (k : S100000x1.Idx)
    (h0 : (k 0).val = t.val * 5000 + (y 0).val) :
    (iblk2 V c 1 t : Vec Ideal S5000x1 .f32) y = (V c main_v17 : S100000x1.Idx → EReal) k := by
  obtain ⟨-, -, e2, e3, -⟩ := blockIndex t
  unfold iblk2
  rw [View.read_apply]
  show V c main_v17 _ = V c main_v17 _
  refine congrArg _ (funext fun a => Fin.ext ?_)
  match a with
  | ⟨0, _⟩ => show win2_1.index t (0 : Fin 2) * 5000 + 1 * (y 0).val = (k 0).val; omega
  | ⟨1, _⟩ =>
    show win2_1.index t (1 : Fin 2) * 1 + 1 * (y 1).val = (k 1).val
    have hy : (y 1).val < 1 := (y 1).isLt
    have hk : (k 1).val < 1 := (k 1).isLt
    omega

/-- Every point's block of the bias is the whole bias vector. -/
theorem bias_block_apply (c : Dev nD) (t : Fin cfg2.N) (y : S2.Idx) (k : S2.Idx) (h0 : (k 0).val = (y 0).val) :
    (iblk2 V c 2 t : Vec Ideal S2 .f32) y = (V c main_arg5 : S2.Idx → EReal) k := by
  obtain ⟨-, -, -, -, e4, -⟩ := blockIndex t
  unfold iblk2
  rw [View.read_apply]
  show V c main_arg5 _ = V c main_arg5 _
  refine congrArg _ (funext fun a => Fin.ext ?_)
  match a with
  | ⟨0, _⟩ => show win2_2.index t (0 : Fin 1) * 2 + 1 * (y 0).val = (k 0).val; omega

/-- An entry of the block point `t` stores, set beside the whole-array function at the entry of the array it lands
    on: row `j₀` of the block is row 5000·t + j₀ of every row-blocked array. -/
theorem block_entry (c : Dev nD) (t : Fin cfg2.N) (j : S5000x2.Idx) (i : S100000x2.Idx)
    (h0 : (i 0).val = t.val * 5000 + (j 0).val) (h1 : (i 1).val = (j 1).val) :
    k2_pay1 (iblk2 V c 0 t) (iblk2 V c 1 t) (iblk2 V c 2 t) j
      = Cert.Gcn.outputStage (V c main_v39) (V c main_v17) (V c main_arg5) i := by
  refine (payload_apply (iblk2 V c 0 t) (iblk2 V c 1 t) (iblk2 V c 2 t) j).trans ?_
  unfold Cert.Gcn.outputStage
  rw [aggregated_block_apply V c t j (ix2 (i 0) (i 1)) h0 h1,
    normaliser_block_apply V c t (ix2 (j 0) (0 : Fin 1)) (ix2 (i 0) (0 : Fin 1)) h0,
    bias_block_apply V c t (ix1 (j 1)) (ix1 (i 1)) h1]

/-! ## What a point writes back, and the whole array -/

/-- WHAT POINT `t` WRITES BACK is block `t` of the output stage of the arrays as the region finds them. -/
theorem flushed_eq (c : Dev nD) (t : Fin cfg2.N) :
    (dat2 (F := Ideal) V c).flushed 3 t = ((cfg2.win 3).blk t).view.read (Elt Ideal)
      (Cert.Gcn.outputStage (V c main_v39) (V c main_v17) (V c main_arg5)) := by
  show (cfg2.win 3).cut (grid2.coords t) ((dat2 V c).after 3 t) = _
  rw [after2_3]
  unfold out2_3
  rw [View.canon_unit_zero zeroOffset2]
  simp only [View.ld_unit_zero (S := S5000x2) zeroOffset2, View.ld_unit_zero (S := S5000x1) zeroOffset2,
    View.ld_unit_zero (S := S2) zeroOffset1]
  obtain ⟨-, -, -, -, -, e5, e6⟩ := blockIndex t
  funext j
  have hi0 : ((((cfg2.win 3).blk t).view.emb j) 0).val = t.val * 5000 + (j 0).val := by
    show win2_3.index t (0 : Fin 2) * 5000 + 1 * (j 0).val = _; omega
  have hi1 : ((((cfg2.win 3).blk t).view.emb j) 1).val = (j 1).val := by
    show win2_3.index t (1 : Fin 2) * 2 + 1 * (j 1).val = _; omega
  exact block_entry V c t j (((cfg2.win 3).blk t).view.emb j) hi0 hi1

/-- An index of the result array is in point `t`'s block iff each coordinate is in the block's range on its axis. -/
theorem mem_blk (t : Fin cfg2.N) (i : S100000x2.Idx) :
    i ∈ ((cfg2.win 3).blk t).view.set ↔ ∀ a : Fin 2, win2_3.index t a * S5000x2.size a ≤ (i a).val
      ∧ (i a).val < win2_3.index t a * S5000x2.size a + S5000x2.size a := by
  show i ∈ ((View.whole main_v40).slice (win2_3.rect t)).set ↔ _
  rw [View.set_slice_whole, Rect.mem_set_unit]
  exact Iff.rfl

/-- Every entry of the result array is written: row `r` by point ⌊r / 5000⌋. -/
theorem cover (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  have ht : (Fin.cast N_2.symm ⟨(i 0).val / 5000, by omega⟩ : Fin cfg2.N).val = (i 0).val / 5000 := rfl
  obtain ⟨-, -, -, -, -, e5, e6⟩ := blockIndex (Fin.cast N_2.symm ⟨(i 0).val / 5000, by omega⟩)
  refine ⟨Fin.cast N_2.symm ⟨(i 0).val / 5000, by omega⟩, flush2_3 _, ?_⟩
  rw [mem_blk]
  intro a
  match a with
  | ⟨0, _⟩ =>
    show win2_3.index _ (0 : Fin 2) * 5000 ≤ (i 0).val ∧ (i 0).val < win2_3.index _ (0 : Fin 2) * 5000 + 5000
    rw [e5, ht]; omega
  | ⟨1, _⟩ =>
    show win2_3.index _ (1 : Fin 2) * 2 ≤ (i 1).val ∧ (i 1).val < win2_3.index _ (1 : Fin 2) * 2 + 2
    rw [e6]; omega

/-- THE RESULT ARRAY after the region is the output stage of the arrays as the region finds them. -/
theorem outputStage_array (c : Dev nD) :
    (dat2 (F := Ideal) V c).arrAt 3 cfg2.N = Cert.Gcn.outputStage (V c main_v39) (V c main_v17) (V c main_arg5) :=
  (dat2 (F := Ideal) V c).arrAt_eq_of_cover 3 (Cert.Gcn.outputStage (V c main_v39) (V c main_v17) (V c main_arg5))
    (fun t _ => flushed_eq V c t) cover

end Cert.KernelIdeal.RegionOutput

end
-- ==== Proof.Graph.lean ====
/-
  The graph side of a two-layer graph convolution over 100000 nodes and 3200000 edges, as pure functions of the
  edge list `ei : i32[2, 3200000]` (row 0 the edges' source nodes, row 1 their target nodes), at the ideal
  values (floats are extended reals):

  * `sources ei`, `targets ei` — the 3300000 index vectors: the edge list's row followed by the self loops 0 … 99999;
  * `column v` — an index vector as a column [3300000, 1] of indices, as it stands; `wrapped v` — the same after a
    negative index has been counted from the end (v < 0 ↦ v + 100000), which is how an array is indexed;
  * `degree ei` — each node's in-degree: a sum of ones over the edges whose target is the node;
  * `normaliser ei` — deg^(-1/2) where deg > 0 (with deg raised to at least 1 under the root), else 0;
    `normaliserColumn ei` — the same as a column [100000, 1];
  * `gatherSum16 ei h`, `gatherSum2 ei h` — row v of the result is the sum, over the edges whose target is v, of
    the source node's row of `h` (16 or 2 features wide);
  * `kernelValue` — the three dense stages (Stages.lean) with a gather-and-sum between them: what the kernel program
    computes, as one function of its six arguments.
-/
import proofs.«138800_j29867202576799_2_alg».proof.KernelIdeal
import proofs.«138800_j29867202576799_2_alg».proof.Proof.Stages

noncomputable section

namespace Cert.Gcn

open Idealize.ShloMosaic Cert.KernelIdeal

-- the shapes' stated side conditions (slice, cast, broadcast and index-map well-formedness), as the program takes them
variable [Facts₀]
open Facts₀

/-- The edges' source nodes, then the self loops. -/
def sources (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The edges' target nodes, then the self loops. -/
def targets (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- An index vector as a column of indices. -/
def column (v : IVec S3300000 32) : IVec S3300000x1 32 :=
  broadcastInDim S3300000x1 ![0] bcast_S3300000_S3300000x1_0 v

/-- An index vector as a column of indices, a negative index first counted from the end. -/
def wrapped (v : IVec S3300000 32) : IVec S3300000x1 32 :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- Each node's in-degree, the self loop counted: ones summed over the edges that end at it. -/
def degree (ei : IVec S2x3200000 32) : FVec Ideal S100000 .f32 :=
  Host.scatterAdd scatter_S100000_S3300000x1_S3300000_n_0_0_1 (broadcastInDim S100000 ![] bcast_S_S100000 (constant S_ .f32 0x00000000#32)) (column (targets ei)) (broadcastInDim S3300000 ![] bcast_S_S3300000 (constant S_ .f32 0x3F800000#32))

/-- deg^(-1/2) where the degree is positive (the degree raised to at least 1 under the root), else 0. -/
def normaliser (ei : IVec S2x3200000 32) : FVec Ideal S100000 .f32 :=
  select (cmpf (F := Ideal) .ogt (degree ei) (broadcastInDim S100000 ![] bcast_S_S100000 (constant S_ .f32 0x00000000#32))) (Host.rsqrt (maximumf (degree ei) (broadcastInDim S100000 ![] bcast_S_S100000 (constant S_ .f32 0x3F800000#32)))) (broadcastInDim S100000 ![] bcast_S_S100000 (id (constant S_ .f32 0x00000000#32)))

/-- The normaliser as a column [100000, 1]. -/
def normaliserColumn (ei : IVec S2x3200000 32) : FVec Ideal S100000x1 .f32 :=
  shapeCast _ (normaliser ei) shapeCasts_S100000_S100000x1

/-- Row v: the sum over the edges ending at v of the source node's row of `h`, 16 features wide. -/
def gatherSum16 (ei : IVec S2x3200000 32) (h : FVec Ideal S100000x16 .f32) : FVec Ideal S100000x16 .f32 :=
  Host.scatterAdd scatter_S100000x16_S3300000x1_S3300000x16_1_0_0_1 (broadcastInDim S100000x16 ![] bcast_S_S100000x16 (constant S_ .f32 0x00000000#32)) (column (targets ei)) (Host.gather gather_S100000x16_S3300000x1_S3300000x16_1_0_n_n_0_1_116 h (wrapped (sources ei)))

/-- Row v: the sum over the edges ending at v of the source node's row of `h`, 2 features wide. -/
def gatherSum2 (ei : IVec S2x3200000 32) (h : FVec Ideal S100000x2 .f32) : FVec Ideal S100000x2 .f32 :=
  Host.scatterAdd scatter_S100000x2_S3300000x1_S3300000x2_1_0_0_1 (broadcastInDim S100000x2 ![] bcast_S_S100000x2 (constant S_ .f32 0x00000000#32)) (column (targets ei)) (Host.gather gather_S100000x2_S3300000x1_S3300000x2_1_0_n_n_0_1_12 h (wrapped (sources ei)))

/-- The kernel program's result as one function of its arguments: features times weights scaled by the normaliser,
    summed along the edges, scaled again with bias and rectifier and multiplied into the second weights and
    scaled, summed along the edges, scaled again with bias. -/
def kernelValue (x : FVec Ideal S100000x128 .f32) (ei : IVec S2x3200000 32) (w1 : FVec Ideal S128x16 .f32)
    (b1 : FVec Ideal S16 .f32) (w2 : FVec Ideal S16x2 .f32) (b2 : FVec Ideal S2 .f32) : FVec Ideal S100000x2 .f32 :=
  outputStage (gatherSum2 ei (hiddenStage (gatherSum16 ei (scaledProduct x w1 (normaliserColumn ei))) (normaliserColumn ei) b1 w2))
    (normaliserColumn ei) b2

end Cert.Gcn

end
-- ==== Proof.WalkEntry.lean ====
/-
  The first stretches of the kernel program, read at the buffers the rest of the program depends on.

  The buffer contents at each boundary of the program are a fold from the launch memory: a stretch of array
  operations rewrites the buffers its operations write and leaves every other buffer. This module lists what each
  of the five stretches writes (so that a buffer outside the list is carried across the stretch unchanged), and
  reads the three stretches before the first blocked region at the launch contents of the edge list:

  * the edge list's two rows, each followed by the self loops, are the index vectors `sources` and `targets`;
  * the sum of ones at the targets is the `degree`; the comparison with zero, the reciprocal root of the degree
    raised to at least one, and the selection between that and zero (a called function of three operations) make
    the `normaliser`, whose reshape is the `normaliserColumn`.

  The three stretches are read one after the other, each from the previous boundary's contents as an unknown.
-/
import proofs.«138800_j29867202576799_2_alg».proof.Proof.Gen.KernelIdeal.Frame
import proofs.«138800_j29867202576799_2_alg».proof.Proof.Graph

noncomputable section

namespace Cert.KernelIdeal.Walk

open Cert.KernelIdeal Idealize.ShloMosaic Idealize.ShloMosaic.TcCoe Idealize.SL.Sem
open Cert.KernelIdeal.Facts₀

variable (m : (ℓ : Loc nD τ sig) → Buf (Elt Ideal) ℓ) (ρ : Dev nD → PrngReg)

/-! ## What each stretch writes, and that it leaves every other buffer -/

/-- The buffers the first stretch's operations write: one per operation, in order. -/
abbrev written0 : List (Ref sig .tc) :=
  [main_v0, main_v1, main_v2, main_v3, main_v4, main_v5, main_v6, main_cst, main_v7, main_cst_0, main_v8, main_v9,
   main_v10, main_cst_1, main_v11, main_v12, main_cst_2, main_v13, main_v14, main_v15, main_cst_3]
/-- The buffers the called function's three operations write. -/
abbrev written0_1 : List (Ref sig .tc) := [main_call0_v0, main_call0_v1, main_v16]
/-- The buffer the reshape to a column writes. -/
abbrev written0_2 : List (Ref sig .tc) := [main_v17]
/-- The buffers the stretch between the first and the second region writes. -/
abbrev written1 : List (Ref sig .tc) :=
  [main_c, main_v19, main_v20, main_c_4, main_v21, main_v22, main_v23, main_v24, main_v25, main_cst_5, main_v26,
   main_v27, main_v28]
/-- The buffers the stretch between the second and the third region writes. -/
abbrev written2 : List (Ref sig .tc) :=
  [main_c_6, main_v30, main_v31, main_c_7, main_v32, main_v33, main_v34, main_v35, main_v36, main_cst_8, main_v37,
   main_v38, main_v39]

theorem hostOps0_writes : (Gen.hostOps0 : List (HloOp τ sig (Elt Ideal))).Forall fun op =>
    op.writes ⊆ (written0.map (Proc.devRef (τ := τ) .tc)).toFinset := by
  simp only [Gen.hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps0_1_writes : (Gen.hostOps0_1 : List (HloOp τ sig (Elt Ideal))).Forall fun op =>
    op.writes ⊆ (written0_1.map (Proc.devRef (τ := τ) .tc)).toFinset := by
  simp only [Gen.hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps0_2_writes : (Gen.hostOps0_2 : List (HloOp τ sig (Elt Ideal))).Forall fun op =>
    op.writes ⊆ (written0_2.map (Proc.devRef (τ := τ) .tc)).toFinset := by
  simp only [Gen.hostOps0_2, List.Forall, StableHlo.nullary_writes, StableHlo.unary_writes, StableHlo.binary_writes,
    StableHlo.ternary_writes, StableHlo.reshape_writes, Finset.singleton_subset_iff, List.mem_toFinset]
  exact List.mem_map_of_mem (by decide)
theorem hostOps1_writes : (Gen.hostOps1 : List (HloOp τ sig (Elt Ideal))).Forall fun op =>
    op.writes ⊆ (written1.map (Proc.devRef (τ := τ) .tc)).toFinset := by
  simp only [Gen.hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps2_writes : (Gen.hostOps2 : List (HloOp τ sig (Elt Ideal))).Forall fun op =>
    op.writes ⊆ (written2.map (Proc.devRef (τ := τ) .tc)).toFinset := by
  simp only [Gen.hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem W1_of (c : Dev nD) (r : Ref sig .tc) (h : r ∉ written0) :
    Gen.W1 (F := Ideal) m ρ c (Proc.devRef .tc r) = Gen.W0 (F := Ideal) m ρ c (Proc.devRef .tc r) :=
  StableHlo.after_of_writes_sub Gen.hostOps0 _ hostOps0_writes h
theorem W2_of (c : Dev nD) (r : Ref sig .tc) (h : r ∉ written0_1) :
    Gen.W2 (F := Ideal) m ρ c (Proc.devRef .tc r) = Gen.W1 (F := Ideal) m ρ c (Proc.devRef .tc r) :=
  StableHlo.after_of_writes_sub Gen.hostOps0_1 _ hostOps0_1_writes h
theorem W3_of (c : Dev nD) (r : Ref sig .tc) (h : r ∉ written0_2) :
    Gen.W3 (F := Ideal) m ρ c (Proc.devRef .tc r) = Gen.W2 (F := Ideal) m ρ c (Proc.devRef .tc r) :=
  StableHlo.after_of_writes_sub Gen.hostOps0_2 _ hostOps0_2_writes h
theorem W5_of (c : Dev nD) (r : Ref sig .tc) (h : r ∉ written1) :
    Gen.W5 (F := Ideal) m ρ c (Proc.devRef .tc r) = Gen.W4 (F := Ideal) m ρ c (Proc.devRef .tc r) :=
  StableHlo.after_of_writes_sub Gen.hostOps1 _ hostOps1_writes h
theorem W7_of (c : Dev nD) (r : Ref sig .tc) (h : r ∉ written2) :
    Gen.W7 (F := Ideal) m ρ c (Proc.devRef .tc r) = Gen.W6 (F := Ideal) m ρ c (Proc.devRef .tc r) :=
  StableHlo.after_of_writes_sub Gen.hostOps2 _ hostOps2_writes h

/-- A buffer none of the three stretches before the first region writes is, at that region's entry, as launched. -/
theorem W3_launch (c : Dev nD) (r : Ref sig .tc) (h0 : r ∉ written0) (h1 : r ∉ written0_1) (h2 : r ∉ written0_2) :
    Gen.W3 (F := Ideal) m ρ c (Proc.devRef .tc r) = m ((c.tc : Thread nD τ).loc r) :=
  (W3_of m ρ c r h2).trans ((W2_of m ρ c r h1).trans ((W1_of m ρ c r h0).trans rfl))

/-! ## The first region's entry

The first stretch's results, read off its operations at the launch contents of the edge list. -/

/-- The edges' sources and the self loops. -/
theorem W1_v3 (c : Dev nD) :
    (Gen.W1 (F := Ideal) m ρ c (Proc.devRef .tc main_v3) : IVec S3300000 32)
      = Cert.Gcn.sources (m ((c.tc : Thread nD τ).loc main_arg1)) := by
  unfold Cert.Gcn.sources
  show StableHlo.after Gen.hostOps0 _ (Proc.devRef .tc main_v3) = _
  after_results
  rfl

/-- The edges' targets and the self loops. -/
theorem W1_v6 (c : Dev nD) :
    (Gen.W1 (F := Ideal) m ρ c (Proc.devRef .tc main_v6) : IVec S3300000 32)
      = Cert.Gcn.targets (m ((c.tc : Thread nD τ).loc main_arg1)) := by
  unfold Cert.Gcn.targets
  show StableHlo.after Gen.hostOps0 _ (Proc.devRef .tc main_v6) = _
  after_results
  rfl

/-- Where the degree is positive. -/
theorem W1_v12 (c : Dev nD) :
    (Gen.W1 (F := Ideal) m ρ c (Proc.devRef .tc main_v12) : IVec S100000 1)
      = cmpf (F := Ideal) .ogt (Cert.Gcn.degree (m ((c.tc : Thread nD τ).loc main_arg1)))
          (broadcastInDim S100000 ![] bcast_S_S100000 (constant S_ .f32 0x00000000#32)) := by
  unfold Cert.Gcn.degree Cert.Gcn.column Cert.Gcn.targets
  show StableHlo.after Gen.hostOps0 _ (Proc.devRef .tc main_v12) = _
  after_results
  rfl

/-- The reciprocal root of the degree raised to at least one. -/
theorem W1_v15 (c : Dev nD) :
    (Gen.W1 (F := Ideal) m ρ c (Proc.devRef .tc main_v15) : FVec Ideal S100000 .f32)
      = Host.rsqrt (maximumf (Cert.Gcn.degree (m ((c.tc : Thread nD τ).loc main_arg1)))
          (broadcastInDim S100000 ![] bcast_S_S100000 (constant S_ .f32 0x3F800000#32))) := by
  unfold Cert.Gcn.degree Cert.Gcn.column Cert.Gcn.targets
  show StableHlo.after Gen.hostOps0 _ (Proc.devRef .tc main_v15) = _
  after_results
  rfl

/-- The zero the normaliser takes where the degree is not positive. -/
theorem W1_cst_3 (c : Dev nD) :
    (Gen.W1 (F := Ideal) m ρ c (Proc.devRef .tc main_cst_3) : FVec Ideal S_ .f32) = constant (F := Ideal) S_ .f32 0x00000000#32 := by
  show StableHlo.after Gen.hostOps0 _ (Proc.devRef .tc main_cst_3) = _
  after_results

/-- The called function selects between the two: the normaliser. -/
theorem W2_v16 (c : Dev nD) :
    (Gen.W2 (F := Ideal) m ρ c (Proc.devRef .tc main_v16) : FVec Ideal S100000 .f32)
      = Cert.Gcn.normaliser (m ((c.tc : Thread nD τ).loc main_arg1)) := by
  unfold Cert.Gcn.normaliser
  rw [← W1_v12 m ρ c, ← W1_v15 m ρ c, ← W1_cst_3 m ρ c]
  show StableHlo.after Gen.hostOps0_1 (Gen.W1 (F := Ideal) m ρ c) (Proc.devRef .tc main_v16) = _
  generalize Gen.W1 (F := Ideal) m ρ c = D
  after_results
  rfl

/-- The normaliser as a column. -/
theorem W3_v17 (c : Dev nD) :
    (Gen.W3 (F := Ideal) m ρ c (Proc.devRef .tc main_v17) : FVec Ideal S100000x1 .f32)
      = Cert.Gcn.normaliserColumn (m ((c.tc : Thread nD τ).loc main_arg1)) := by
  unfold Cert.Gcn.normaliserColumn
  rw [← W2_v16 m ρ c]
  show StableHlo.after Gen.hostOps0_2 (Gen.W2 (F := Ideal) m ρ c) (Proc.devRef .tc main_v17) = _
  generalize Gen.W2 (F := Ideal) m ρ c = D
  after_results
  rfl

theorem W3_v3 (c : Dev nD) :
    (Gen.W3 (F := Ideal) m ρ c (Proc.devRef .tc main_v3) : IVec S3300000 32)
      = Cert.Gcn.sources (m ((c.tc : Thread nD τ).loc main_arg1)) :=
  (W3_of m ρ c main_v3 (by decide)).trans ((W2_of m ρ c main_v3 (by decide)).trans (W1_v3 m ρ c))

theorem W3_v6 (c : Dev nD) :
    (Gen.W3 (F := Ideal) m ρ c (Proc.devRef .tc main_v6) : IVec S3300000 32)
      = Cert.Gcn.targets (m ((c.tc : Thread nD τ).loc main_arg1)) :=
  (W3_of m ρ c main_v6 (by decide)).trans ((W2_of m ρ c main_v6 (by decide)).trans (W1_v6 m ρ c))

end Cert.KernelIdeal.Walk
end
-- ==== Proof.Walk.lean ====
/-
  The kernel program's result read back to its six arguments.

  The program alternates stretches of array operations with three blocked regions. The buffer contents at each
  boundary are a fold from the launch memory: a stretch rewrites the buffers its operations write and leaves the
  rest; a region leaves its output array at what its blocks' write-backs make of it, and every other buffer
  (its input arrays among them) as entered. Here the fold is read at the few buffers the result depends on, one
  boundary at a time, every earlier boundary's contents an unknown:

  * at the first region's entry the index vectors are `sources` and `targets`, the column of normalisers is
    `normaliserColumn` (all three functions of the edge list), and the arguments are as launched;
  * each region, GIVEN that its blocks assemble to the stage's whole-array function of its input arrays from any
    entry contents (`Region0`, `Region1`, `Region2`), leaves that function of what it was entered with;
  * each stretch between two regions gathers the rows of the region's result at the sources and sums them at the
    targets: `gatherSum16`, `gatherSum2`.

  Composed: the result's buffer at the last boundary is `kernelValue` of the launch contents of the arguments.
-/
import proofs.«138800_j29867202576799_2_alg».proof.Proof.WalkEntry

noncomputable section

namespace Cert.KernelIdeal.Walk

open Cert.KernelIdeal Idealize.ShloMosaic Idealize.ShloMosaic.TcCoe Idealize.SL.Sem

variable (m : (ℓ : Loc nD τ sig) → Buf (Elt Ideal) ℓ) (ρ : Dev nD → PrngReg)

/-! ## The arguments at the first region's entry -/

theorem W3_arg0 (c : Dev nD) :
    (Gen.W3 (F := Ideal) m ρ c (Proc.devRef .tc main_arg0) : FVec Ideal S100000x128 .f32) = m ((c.tc : Thread nD τ).loc main_arg0) :=
  W3_launch m ρ c main_arg0 (by decide) (by decide) (by decide)
theorem W3_arg2 (c : Dev nD) :
    (Gen.W3 (F := Ideal) m ρ c (Proc.devRef .tc main_arg2) : FVec Ideal S128x16 .f32) = m ((c.tc : Thread nD τ).loc main_arg2) :=
  W3_launch m ρ c main_arg2 (by decide) (by decide) (by decide)
theorem W3_arg3 (c : Dev nD) :
    (Gen.W3 (F := Ideal) m ρ c (Proc.devRef .tc main_arg3) : FVec Ideal S16 .f32) = m ((c.tc : Thread nD τ).loc main_arg3) :=
  W3_launch m ρ c main_arg3 (by decide) (by decide) (by decide)
theorem W3_arg4 (c : Dev nD) :
    (Gen.W3 (F := Ideal) m ρ c (Proc.devRef .tc main_arg4) : FVec Ideal S16x2 .f32) = m ((c.tc : Thread nD τ).loc main_arg4) :=
  W3_launch m ρ c main_arg4 (by decide) (by decide) (by decide)
theorem W3_arg5 (c : Dev nD) :
    (Gen.W3 (F := Ideal) m ρ c (Proc.devRef .tc main_arg5) : FVec Ideal S2 .f32) = m ((c.tc : Thread nD τ).loc main_arg5) :=
  W3_launch m ρ c main_arg5 (by decide) (by decide) (by decide)

/-! ## What is assumed of the three regions

Each region's output array, at what its blocks' write-backs leave, is the stage's whole-array function of the
region's input arrays as entered — from ANY entry contents `V`. -/

abbrev Region0 : Prop := ∀ (V : (c : Dev nD) → (b : Ref sig .tc) → Buf (Elt Ideal) ((c : Thread nD τ).loc b)) (c : Dev nD),
  (Gen.dat0 (F := Ideal) V c).arrAt 3 cfg0.N = Cert.Gcn.scaledProduct (V c main_arg0) (V c main_arg2) (V c main_v17)
abbrev Region1 : Prop := ∀ (V : (c : Dev nD) → (b : Ref sig .tc) → Buf (Elt Ideal) ((c : Thread nD τ).loc b)) (c : Dev nD),
  (Gen.dat1 (F := Ideal) V c).arrAt 4 cfg1.N = Cert.Gcn.hiddenStage (V c main_v28) (V c main_v17) (V c main_arg3) (V c main_arg4)
abbrev Region2 : Prop := ∀ (V : (c : Dev nD) → (b : Ref sig .tc) → Buf (Elt Ideal) ((c : Thread nD τ).loc b)) (c : Dev nD),
  (Gen.dat2 (F := Ideal) V c).arrAt 3 cfg2.N = Cert.Gcn.outputStage (V c main_v39) (V c main_v17) (V c main_arg5)

/-! ## The first region's exit -/

/-- The region's result: the feature product, each row scaled by its node's normaliser. -/
theorem W4_v18 (h0 : Region0) (c : Dev nD) :
    (Gen.W4 (F := Ideal) m ρ c (Proc.devRef .tc main_v18) : FVec Ideal S100000x16 .f32) = Cert.Gcn.scaledProduct (m ((c.tc : Thread nD τ).loc main_arg0)) (m ((c.tc : Thread nD τ).loc main_arg2)) (Cert.Gcn.normaliserColumn (m ((c.tc : Thread nD τ).loc main_arg1))) := by
  rw [← W3_arg0 m ρ c, ← W3_arg2 m ρ c, ← W3_v17 m ρ c]
  exact (Gen.W4_arr m ρ c 3).trans (h0 (Gen.V3 m ρ) c)

theorem W4_v3 (c : Dev nD) :
    (Gen.W4 (F := Ideal) m ρ c (Proc.devRef .tc main_v3) : IVec S3300000 32) = Cert.Gcn.sources (m ((c.tc : Thread nD τ).loc main_arg1)) :=
  (Gen.W4_of_ne m ρ c main_v3 (by decide)).trans (W3_v3 m ρ c)
theorem W4_v6 (c : Dev nD) :
    (Gen.W4 (F := Ideal) m ρ c (Proc.devRef .tc main_v6) : IVec S3300000 32) = Cert.Gcn.targets (m ((c.tc : Thread nD τ).loc main_arg1)) :=
  (Gen.W4_of_ne m ρ c main_v6 (by decide)).trans (W3_v6 m ρ c)
/-- The normalisers' column is an input of the region: left as entered. -/
theorem W4_v17 (c : Dev nD) :
    (Gen.W4 (F := Ideal) m ρ c (Proc.devRef .tc main_v17) : FVec Ideal S100000x1 .f32) = Cert.Gcn.normaliserColumn (m ((c.tc : Thread nD τ).loc main_arg1)) :=
  ((Gen.W4_arr m ρ c 2).trans (((Gen.dat0 (Gen.V3 m ρ) c).arrAt_in 2 rfl _).trans (Gen.A_eq0 (Gen.V3 m ρ) c 2))).trans
    (W3_v17 m ρ c)
theorem W4_arg3 (c : Dev nD) :
    (Gen.W4 (F := Ideal) m ρ c (Proc.devRef .tc main_arg3) : FVec Ideal S16 .f32) = m ((c.tc : Thread nD τ).loc main_arg3) :=
  (Gen.W4_of_ne m ρ c main_arg3 (by decide)).trans (W3_arg3 m ρ c)
theorem W4_arg4 (c : Dev nD) :
    (Gen.W4 (F := Ideal) m ρ c (Proc.devRef .tc main_arg4) : FVec Ideal S16x2 .f32) = m ((c.tc : Thread nD τ).loc main_arg4) :=
  (Gen.W4_of_ne m ρ c main_arg4 (by decide)).trans (W3_arg4 m ρ c)
theorem W4_arg5 (c : Dev nD) :
    (Gen.W4 (F := Ideal) m ρ c (Proc.devRef .tc main_arg5) : FVec Ideal S2 .f32) = m ((c.tc : Thread nD τ).loc main_arg5) :=
  (Gen.W4_of_ne m ρ c main_arg5 (by decide)).trans (W3_arg5 m ρ c)

/-! ## The second region's entry -/

/-- The stretch gathers the first region's rows at the sources and sums them at the targets. -/
theorem W5_v28 (h0 : Region0) (c : Dev nD) :
    (Gen.W5 (F := Ideal) m ρ c (Proc.devRef .tc main_v28) : FVec Ideal S100000x16 .f32) = Cert.Gcn.gatherSum16 (m ((c.tc : Thread nD τ).loc main_arg1)) (Cert.Gcn.scaledProduct (m ((c.tc : Thread nD τ).loc main_arg0)) (m ((c.tc : Thread nD τ).loc main_arg2)) (Cert.Gcn.normaliserColumn (m ((c.tc : Thread nD τ).loc main_arg1)))) := by
  rw [← W4_v18 m ρ h0 c]
  unfold Cert.Gcn.gatherSum16 Cert.Gcn.column Cert.Gcn.wrapped
  rw [← W4_v3 m ρ c, ← W4_v6 m ρ c]
  show StableHlo.after Gen.hostOps1 (Gen.W4 (F := Ideal) m ρ c) (Proc.devRef .tc main_v28) = _
  generalize Gen.W4 (F := Ideal) m ρ c = D
  after_results

theorem W5_v3 (c : Dev nD) :
    (Gen.W5 (F := Ideal) m ρ c (Proc.devRef .tc main_v3) : IVec S3300000 32) = Cert.Gcn.sources (m ((c.tc : Thread nD τ).loc main_arg1)) :=
  (W5_of m ρ c main_v3 (by decide)).trans (W4_v3 m ρ c)
theorem W5_v6 (c : Dev nD) :
    (Gen.W5 (F := Ideal) m ρ c (Proc.devRef .tc main_v6) : IVec S3300000 32) = Cert.Gcn.targets (m ((c.tc : Thread nD τ).loc main_arg1)) :=
  (W5_of m ρ c main_v6 (by decide)).trans (W4_v6 m ρ c)
theorem W5_v17 (c : Dev nD) :
    (Gen.W5 (F := Ideal) m ρ c (Proc.devRef .tc main_v17) : FVec Ideal S100000x1 .f32) = Cert.Gcn.normaliserColumn (m ((c.tc : Thread nD τ).loc main_arg1)) :=
  (W5_of m ρ c main_v17 (by decide)).trans (W4_v17 m ρ c)
theorem W5_arg3 (c : Dev nD) :
    (Gen.W5 (F := Ideal) m ρ c (Proc.devRef .tc main_arg3) : FVec Ideal S16 .f32) = m ((c.tc : Thread nD τ).loc main_arg3) :=
  (W5_of m ρ c main_arg3 (by decide)).trans (W4_arg3 m ρ c)
theorem W5_arg4 (c : Dev nD) :
    (Gen.W5 (F := Ideal) m ρ c (Proc.devRef .tc main_arg4) : FVec Ideal S16x2 .f32) = m ((c.tc : Thread nD τ).loc main_arg4) :=
  (W5_of m ρ c main_arg4 (by decide)).trans (W4_arg4 m ρ c)
theorem W5_arg5 (c : Dev nD) :
    (Gen.W5 (F := Ideal) m ρ c (Proc.devRef .tc main_arg5) : FVec Ideal S2 .f32) = m ((c.tc : Thread nD τ).loc main_arg5) :=
  (W5_of m ρ c main_arg5 (by decide)).trans (W4_arg5 m ρ c)

/-! ## The second region's exit -/

/-- The region's result: the aggregated first layer scaled, biased and rectified, multiplied into the second
    layer's weights, each row scaled again. -/
theorem W6_v29 (h0 : Region0) (h1 : Region1) (c : Dev nD) :
    (Gen.W6 (F := Ideal) m ρ c (Proc.devRef .tc main_v29) : FVec Ideal S100000x2 .f32) = Cert.Gcn.hiddenStage (Cert.Gcn.gatherSum16 (m ((c.tc : Thread nD τ).loc main_arg1)) (Cert.Gcn.scaledProduct (m ((c.tc : Thread nD τ).loc main_arg0)) (m ((c.tc : Thread nD τ).loc main_arg2)) (Cert.Gcn.normaliserColumn (m ((c.tc : Thread nD τ).loc main_arg1))))) (Cert.Gcn.normaliserColumn (m ((c.tc : Thread nD τ).loc main_arg1))) (m ((c.tc : Thread nD τ).loc main_arg3)) (m ((c.tc : Thread nD τ).loc main_arg4)) := by
  rw [← W5_v28 m ρ h0 c, ← W5_v17 m ρ c, ← W5_arg3 m ρ c, ← W5_arg4 m ρ c]
  exact (Gen.W6_arr m ρ c 4).trans (h1 (Gen.V5 m ρ) c)

theorem W6_v3 (c : Dev nD) :
    (Gen.W6 (F := Ideal) m ρ c (Proc.devRef .tc main_v3) : IVec S3300000 32) = Cert.Gcn.sources (m ((c.tc : Thread nD τ).loc main_arg1)) :=
  (Gen.W6_of_ne m ρ c main_v3 (by decide)).trans (W5_v3 m ρ c)
theorem W6_v6 (c : Dev nD) :
    (Gen.W6 (F := Ideal) m ρ c (Proc.devRef .tc main_v6) : IVec S3300000 32) = Cert.Gcn.targets (m ((c.tc : Thread nD τ).loc main_arg1)) :=
  (Gen.W6_of_ne m ρ c main_v6 (by decide)).trans (W5_v6 m ρ c)
/-- The normalisers' column is an input of this region too. -/
theorem W6_v17 (c : Dev nD) :
    (Gen.W6 (F := Ideal) m ρ c (Proc.devRef .tc main_v17) : FVec Ideal S100000x1 .f32) = Cert.Gcn.normaliserColumn (m ((c.tc : Thread nD τ).loc main_arg1)) :=
  ((Gen.W6_arr m ρ c 1).trans (((Gen.dat1 (Gen.V5 m ρ) c).arrAt_in 1 rfl _).trans (Gen.A_eq1 (Gen.V5 m ρ) c 1))).trans
    (W5_v17 m ρ c)
theorem W6_arg5 (c : Dev nD) :
    (Gen.W6 (F := Ideal) m ρ c (Proc.devRef .tc main_arg5) : FVec Ideal S2 .f32) = m ((c.tc : Thread nD τ).loc main_arg5) :=
  (Gen.W6_of_ne m ρ c main_arg5 (by decide)).trans (W5_arg5 m ρ c)

/-! ## The third region's entry -/

/-- The stretch gathers the second region's rows at the sources and sums them at the targets. -/
theorem W7_v39 (h0 : Region0) (h1 : Region1) (c : Dev nD) :
    (Gen.W7 (F := Ideal) m ρ c (Proc.devRef .tc main_v39) : FVec Ideal S100000x2 .f32) = Cert.Gcn.gatherSum2 (m ((c.tc : Thread nD τ).loc main_arg1)) (Cert.Gcn.hiddenStage (Cert.Gcn.gatherSum16 (m ((c.tc : Thread nD τ).loc main_arg1)) (Cert.Gcn.scaledProduct (m ((c.tc : Thread nD τ).loc main_arg0)) (m ((c.tc : Thread nD τ).loc main_arg2)) (Cert.Gcn.normaliserColumn (m ((c.tc : Thread nD τ).loc main_arg1))))) (Cert.Gcn.normaliserColumn (m ((c.tc : Thread nD τ).loc main_arg1))) (m ((c.tc : Thread nD τ).loc main_arg3)) (m ((c.tc : Thread nD τ).loc main_arg4))) := by
  rw [← W6_v29 m ρ h0 h1 c]
  unfold Cert.Gcn.gatherSum2 Cert.Gcn.column Cert.Gcn.wrapped
  rw [← W6_v3 m ρ c, ← W6_v6 m ρ c]
  show StableHlo.after Gen.hostOps2 (Gen.W6 (F := Ideal) m ρ c) (Proc.devRef .tc main_v39) = _
  generalize Gen.W6 (F := Ideal) m ρ c = D
  after_results

theorem W7_v17 (c : Dev nD) :
    (Gen.W7 (F := Ideal) m ρ c (Proc.devRef .tc main_v17) : FVec Ideal S100000x1 .f32) = Cert.Gcn.normaliserColumn (m ((c.tc : Thread nD τ).loc main_arg1)) :=
  (W7_of m ρ c main_v17 (by decide)).trans (W6_v17 m ρ c)
theorem W7_arg5 (c : Dev nD) :
    (Gen.W7 (F := Ideal) m ρ c (Proc.devRef .tc main_arg5) : FVec Ideal S2 .f32) = m ((c.tc : Thread nD τ).loc main_arg5) :=
  (W7_of m ρ c main_arg5 (by decide)).trans (W6_arg5 m ρ c)

/-! ## The result -/

/-- The result's buffer at the last boundary is the kernel's value at the launch contents of the six arguments. -/
theorem result_eq
    (h0 : ∀ (V : (c : Dev nD) → (b : Ref sig .tc) → Buf (Elt Ideal) ((c : Thread nD τ).loc b)) (c : Dev nD),
      (Gen.dat0 (F := Ideal) V c).arrAt 3 cfg0.N = Cert.Gcn.scaledProduct (V c main_arg0) (V c main_arg2) (V c main_v17))
    (h1 : ∀ (V : (c : Dev nD) → (b : Ref sig .tc) → Buf (Elt Ideal) ((c : Thread nD τ).loc b)) (c : Dev nD),
      (Gen.dat1 (F := Ideal) V c).arrAt 4 cfg1.N = Cert.Gcn.hiddenStage (V c main_v28) (V c main_v17) (V c main_arg3) (V c main_arg4))
    (h2 : ∀ (V : (c : Dev nD) → (b : Ref sig .tc) → Buf (Elt Ideal) ((c : Thread nD τ).loc b)) (c : Dev nD),
      (Gen.dat2 (F := Ideal) V c).arrAt 3 cfg2.N = Cert.Gcn.outputStage (V c main_v39) (V c main_v17) (V c main_arg5))
    (c : Dev nD) :
    Gen.W8 (F := Ideal) m ρ c (Proc.devRef .tc main_v40)
      = Cert.Gcn.kernelValue (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.Gcn.kernelValue
  rw [← W7_v39 m ρ h0 h1 c, ← W7_v17 m ρ c, ← W7_arg5 m ρ c]
  exact (Gen.W8_arr m ρ c 3).trans (h2 (Gen.V7 m ρ) c)

end Cert.KernelIdeal.Walk
end
-- ==== Proof.RunValue.lean ====
/-
  The kernel program run from the launch memory: at the compiled mesh, from any memory with zero counters, every
  weakly fair execution of the program on the TensorCores terminates, nothing faulting, and in every final state
  the result's buffer holds the last boundary's contents of the fold through the program (`Gen.W8`), and each of the
  six argument arrays is as launched. The run is the launch of the program's eight segments (five stretches of array
  operations, three blocked regions) from the thread state "every unscoped buffer at the boundary's contents"; the
  last thread state is read against the final memory, at the result's buffer and at each argument's.
-/
import proofs.«138800_j29867202576799_2_alg».proof.Proof.Gen.KernelIdeal.Frame
import Idealize.ShloMosaic.PureOps.Ideal

set_option maxRecDepth 16384

noncomputable section

namespace Cert.KernelIdeal.Walk

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, with the result's buffer read at the last boundary. -/
theorem run_value : θ_run defs (onTc (τ := τ) (main (F := Ideal))) ⟨m, fun _ => 0, ρ⟩ (fun r => ∀ c : Dev nD,
      r.2.mem ((c.tc : Thread nD τ).loc main_v40) = Gen.W8 (F := Ideal) m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R (F := Ideal) c)) (Tₙ := Gen.Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W8 m ρ c) s')
      isplitl [Hh] <;> iassumption)
    (hQ := fun s h c =>
      ⟨h c _ (Gen.mem_uc main_v40 (by decide)),
       (h c _ (Gen.mem_uc main_arg0 (by decide))).trans (Gen.W8_main_arg0 m ρ c),
       (h c _ (Gen.mem_uc main_arg1 (by decide))).trans (Gen.W8_main_arg1 m ρ c),
       (h c _ (Gen.mem_uc main_arg2 (by decide))).trans (Gen.W8_main_arg2 m ρ c),
       (h c _ (Gen.mem_uc main_arg3 (by decide))).trans (Gen.W8_main_arg3 m ρ c),
       (h c _ (Gen.mem_uc main_arg4 (by decide))).trans (Gen.W8_main_arg4 m ρ c),
       (h c _ (Gen.mem_uc main_arg5 (by decide))).trans (Gen.W8_main_arg5 m ρ c)⟩)

end Cert.KernelIdeal.Walk

end
-- ==== Proof.EdgeIndex.lean ====
/-
  Reading the edge operations at an index.

  A gather `h[idx]` along the node axis reads, at edge `e` (and feature `f`), the row of `h` numbered by the index
  word `idx[e]` read as a signed integer and clamped into 0 … 99999 (`rowOf`); a scatter-add lands the update of edge
  `e` on the row numbered by the index word read as a signed integer, NOT clamped, and drops it when that number is
  not a row. So an update that lands on row `v` has an index word that reads `v`, and a gather at the same word,
  wrapped or not, reads row `v`.
-/
import proofs.«138800_j29867202576799_2_alg».proof.Proof.Graph
import Idealize.ShloMosaic.Lib.Pipeline.Value
import proofs.«138800_j29867202576799_2_alg».proof.ReferenceIdeal

noncomputable section

namespace Cert.Gcn

open Idealize.ShloMosaic Idealize.ShloMosaic.ValueIdx Cert.KernelIdeal

variable [Facts₀]
open Facts₀

/-- The row a gather reads for an index word: the word read signed, clamped into 0 … 99999. -/
def rowOf (w : BitVec 32) : Fin 100000 := ⟨min w.toInt.toNat 99999, by omega⟩

abbrev gd16 : GatherDims S100000x16 S3300000x1 S3300000x16 := gather_S100000x16_S3300000x1_S3300000x16_1_0_n_n_0_1_116

/-- The 16-wide gather at edge `e`, feature `f`: row `rowOf idx[e]` of `h`, feature `f`. -/
theorem gather16_apply {α : Type} (h : S100000x16.Idx → α) (idx : IVec S3300000x1 32) (e : Fin 3300000) (f : Fin 16) :
    Host.gather gd16 h idx (ix2 e f) = h (ix2 (rowOf (idx (ix2 e (0 : Fin 1)))) f) := by
  unfold Host.gather
  congr 1
  funext a
  refine Fin.ext ?_
  match a with
  | ⟨0, _⟩ =>
    show gd16.start (ix2 e f) idx 0 + gd16.batchCoord (ix2 e f) 0 + gd16.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd16.startIndexMap from List.mem_singleton.mpr rfl)]
    have hsi : gd16.siIdx (ix2 e f) ⟨List.idxOf (0 : Fin 2) gd16.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gd16.start (ix2 e f) idx 1 + gd16.batchCoord (ix2 e f) 1 + gd16.offCoord (ix2 e f) 1 = _
    rw [GatherDims.batchCoord_eq_zero _ _ _ List.not_mem_nil]
    unfold GatherDims.start
    rw [dif_neg (show (1 : Fin 2) ∉ gd16.startIndexMap from fun h => absurd (List.mem_singleton.mp h) (by decide))]
    unfold GatherDims.offCoord
    rw [dif_pos (show (1 : Fin 2) ∈ gd16.sKept from (GatherDims.mem_sKept _ _).mpr
      ⟨fun h => absurd (List.mem_singleton.mp h) (by decide), List.not_mem_nil⟩)]
    -- the one offset axis of the result is its feature axis, whatever position the list is read at
    have hX : ∀ (k : Nat) (hk : k < gd16.offsetDims.length), gd16.offsetDims[k]'hk = (1 : Fin 2) := by
      intro k hk
      show ([1] : List (Fin 2))[k]'hk = 1
      exact List.getElem_singleton hk
    rw [hX, Nat.zero_add]

abbrev gd2 : GatherDims S100000x2 S3300000x1 S3300000x2 := gather_S100000x2_S3300000x1_S3300000x2_1_0_n_n_0_1_12

/-- The 2-wide gather at edge `e`, feature `f`: row `rowOf idx[e]` of `h`, feature `f`. -/
theorem gather2_apply {α : Type} (h : S100000x2.Idx → α) (idx : IVec S3300000x1 32) (e : Fin 3300000) (f : Fin 2) :
    Host.gather gd2 h idx (ix2 e f) = h (ix2 (rowOf (idx (ix2 e (0 : Fin 1)))) f) := by
  unfold Host.gather
  congr 1
  funext a
  refine Fin.ext ?_
  match a with
  | ⟨0, _⟩ =>
    show gd2.start (ix2 e f) idx 0 + gd2.batchCoord (ix2 e f) 0 + gd2.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd2.startIndexMap from List.mem_singleton.mpr rfl)]
    have hsi : gd2.siIdx (ix2 e f) ⟨List.idxOf (0 : Fin 2) gd2.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gd2.start (ix2 e f) idx 1 + gd2.batchCoord (ix2 e f) 1 + gd2.offCoord (ix2 e f) 1 = _
    rw [GatherDims.batchCoord_eq_zero _ _ _ List.not_mem_nil]
    unfold GatherDims.start
    rw [dif_neg (show (1 : Fin 2) ∉ gd2.startIndexMap from fun h => absurd (List.mem_singleton.mp h) (by decide))]
    unfold GatherDims.offCoord
    rw [dif_pos (show (1 : Fin 2) ∈ gd2.sKept from (GatherDims.mem_sKept _ _).mpr
      ⟨fun h => absurd (List.mem_singleton.mp h) (by decide), List.not_mem_nil⟩)]
    have hX : ∀ (k : Nat) (hk : k < gd2.offsetDims.length), gd2.offsetDims[k]'hk = (1 : Fin 2) := by
      intro k hk
      show ([1] : List (Fin 2))[k]'hk = 1
      exact List.getElem_singleton hk
    rw [hX, Nat.zero_add]

-- only the reference program gathers a per-node vector along the edges: the record is its own
abbrev gd1 [Cert.ReferenceIdeal.Facts₀] : GatherDims S100000 S3300000x1 S3300000 :=
  Cert.ReferenceIdeal.gather_S100000_S3300000x1_S3300000_n_0_n_n_0_1_1

/-- The gather of a per-node vector at edge `e`: its entry at row `rowOf idx[e]`. -/
theorem gather1_apply [Cert.ReferenceIdeal.Facts₀] {α : Type} (d : S100000.Idx → α) (idx : IVec S3300000x1 32) (e : Fin 3300000) :
    Host.gather gd1 d idx (ix1 e) = d (ix1 (rowOf (idx (ix2 e (0 : Fin 1))))) := by
  unfold Host.gather
  congr 1
  funext a
  refine Fin.ext ?_
  match a with
  | ⟨0, _⟩ =>
    show gd1.start (ix1 e) idx 0 + gd1.batchCoord (ix1 e) 0 + gd1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gd1.startIndexMap from List.mem_singleton.mpr rfl)]
    have hsi : gd1.siIdx (ix1 e) ⟨List.idxOf (0 : Fin 1) gd1.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Where a scatter-add lands an update -/

abbrev sd16 : ScatterDims S100000x16 S3300000x1 S3300000x16 := scatter_S100000x16_S3300000x1_S3300000x16_1_0_0_1
abbrev sd2 : ScatterDims S100000x2 S3300000x1 S3300000x2 := scatter_S100000x2_S3300000x1_S3300000x2_1_0_0_1

/-- An update (edge `e`, any feature) that lands on element `i` has an index word that reads, signed, the row of `i`. -/
theorem scatter16_lands (idx : IVec S3300000x1 32) (e : Fin 3300000) (f : Fin 16) (i : S100000x16.Idx)
    (h : sd16.resultIdx? (ix2 e f) idx = some i) : (idx (ix2 e (0 : Fin 1))).toInt = ((i 0).val : Int) := by
  unfold ScatterDims.resultIdx? at h
  split at h
  · rename_i hall
    have hi := Option.some.inj h
    have h0 := (hall 0).1
    have hw : sd16.window (ix2 e f) 0 = 0 := by
      unfold ScatterDims.window
      rw [dif_neg (fun hm => (of_decide_eq_true (List.mem_filter.mp hm).2) (List.mem_singleton.mpr rfl))]
    have hs : sd16.start (ix2 e f) idx 0 = (idx (ix2 e (0 : Fin 1))).toInt := by
      unfold ScatterDims.start
      rw [dif_pos (show (0 : Fin 2) ∈ sd16.scatterDimsToOperandDims from List.mem_singleton.mpr rfl)]
      have hsi : sd16.siIdx (ix2 e f) ⟨List.idxOf (0 : Fin 2) sd16.scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hv : (i 0).val = (sd16.start (ix2 e f) idx 0 + sd16.window (ix2 e f) 0).toNat := by rw [← hi]
    rw [hw, hs] at h0 hv
    omega
  · exact absurd h (by simp)

/-- The same two features wide. -/
theorem scatter2_lands (idx : IVec S3300000x1 32) (e : Fin 3300000) (f : Fin 2) (i : S100000x2.Idx)
    (h : sd2.resultIdx? (ix2 e f) idx = some i) : (idx (ix2 e (0 : Fin 1))).toInt = ((i 0).val : Int) := by
  unfold ScatterDims.resultIdx? at h
  split at h
  · rename_i hall
    have hi := Option.some.inj h
    have h0 := (hall 0).1
    have hw : sd2.window (ix2 e f) 0 = 0 := by
      unfold ScatterDims.window
      rw [dif_neg (fun hm => (of_decide_eq_true (List.mem_filter.mp hm).2) (List.mem_singleton.mpr rfl))]
    have hs : sd2.start (ix2 e f) idx 0 = (idx (ix2 e (0 : Fin 1))).toInt := by
      unfold ScatterDims.start
      rw [dif_pos (show (0 : Fin 2) ∈ sd2.scatterDimsToOperandDims from List.mem_singleton.mpr rfl)]
      have hsi : sd2.siIdx (ix2 e f) ⟨List.idxOf (0 : Fin 2) sd2.scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hv : (i 0).val = (sd2.start (ix2 e f) idx 0 + sd2.window (ix2 e f) 0).toNat := by rw [← hi]
    rw [hw, hs] at h0 hv
    omega
  · exact absurd h (by simp)

/-! ## The index columns at an edge -/

/-- An index word with a negative value counted from the end: w < 0 ↦ w + 100000. -/
def wrapWord (w : BitVec 32) : BitVec 32 := Scalar.select (IntOp.cmpi .slt w 0#32) (IntOp.addi w 100000#32) w

theorem column_apply (v : IVec S3300000 32) (e : Fin 3300000) : column v (ix2 e (0 : Fin 1)) = v (ix1 e) := by
  unfold column
  exact broadcastInDim_apply _ bcast_S3300000_S3300000x1_0 v (ix2 e (0 : Fin 1)) (ix1 e) (fun a => match a with
    | ⟨0, _⟩ => by show e.val = if (3300000 : Nat) = 1 then 0 else e.val; rw [if_neg (by decide)])

theorem wrapped_apply (v : IVec S3300000 32) (e : Fin 3300000) : wrapped v (ix2 e (0 : Fin 1)) = wrapWord (v (ix1 e)) := by
  unfold wrapped
  rw [broadcastInDim_apply _ bcast_S3300000_S3300000x1_0 _ (ix2 e (0 : Fin 1)) (ix1 e) (fun a => match a with
    | ⟨0, _⟩ => by show e.val = if (3300000 : Nat) = 1 then 0 else e.val; rw [if_neg (by decide)])]
  rfl

/-- A word that reads as a nonnegative integer is not wrapped. -/
theorem wrapWord_of_nonneg (w : BitVec 32) (h : 0 ≤ w.toInt) : wrapWord w = w := by
  unfold wrapWord IntOp.cmpi
  have hs : w.slt 0#32 = false := by
    unfold BitVec.slt
    exact decide_eq_false (by rw [show (0#32 : BitVec 32).toInt = 0 from rfl]; omega)
  simp only [hs]
  exact select_zero _ _

/-- A word that reads as the row number `r` makes a gather read row `r`, wrapped or not. -/
theorem rowOf_wrapWord_of_toInt (w : BitVec 32) (r : Nat) (hr : r < 100000) (h : w.toInt = (r : Int)) :
    (rowOf (wrapWord w)).val = r := by
  rw [wrapWord_of_nonneg w (by omega)]
  show min w.toInt.toNat 99999 = r
  omega

/-- An update that the scatter-add at the raw targets lands on row `r` was gathered, through the wrapped
    targets, from row `r`: sixteen features wide. -/
theorem landed_row16 (v : IVec S3300000 32) (e : Fin 3300000) (f : Fin 16) (i : S100000x16.Idx)
    (h : sd16.resultIdx? (ix2 e f) (column v) = some i) : (rowOf (wrapped v (ix2 e (0 : Fin 1)))).val = (i 0).val := by
  have hl := scatter16_lands (column v) e f i h
  rw [column_apply] at hl
  rw [wrapped_apply]
  exact rowOf_wrapWord_of_toInt _ _ (i 0).isLt hl

/-- The same two features wide. -/
theorem landed_row2 (v : IVec S3300000 32) (e : Fin 3300000) (f : Fin 2) (i : S100000x2.Idx)
    (h : sd2.resultIdx? (ix2 e f) (column v) = some i) : (rowOf (wrapped v (ix2 e (0 : Fin 1)))).val = (i 0).val := by
  have hl := scatter2_lands (column v) e f i h
  rw [column_apply] at hl
  rw [wrapped_apply]
  exact rowOf_wrapWord_of_toInt _ _ (i 0).isLt hl

end Cert.Gcn

end
-- ==== Proof.Reference.lean ====
/-
  What the reference program computes, as one function of its six arguments, in the vocabulary of Graph.lean.

  Per layer it multiplies the features into the weights, gathers the source node's row for every edge, weights it
  by the normalisers at the edge's two ends, and sums the weighted messages at the edges' targets
  (`weightedSum16`, `weightedSum2`); then it adds the bias; between the layers it rectifies.
-/
import proofs.«138800_j29867202576799_2_alg».proof.Proof.EdgeIndex

noncomputable section

namespace Cert.Gcn

open Idealize.ShloMosaic Cert.KernelIdeal

variable [Facts₀] [Cert.ReferenceIdeal.Facts₀]
open Facts₀

/-- Every edge's message `h[source]`, weighted by the normalisers of its source and of its target, summed at the
    edges' targets: sixteen features wide. -/
def weightedSum16 (ei : IVec S2x3200000 32) (h : FVec Ideal S100000x16 .f32) : FVec Ideal S100000x16 .f32 :=
  Host.scatterAdd sd16 (broadcastInDim S100000x16 ![] bcast_S_S100000x16 (constant S_ .f32 0x00000000#32))
    (column (targets ei))
    (mulf (Host.gather gd16 h (wrapped (sources ei)))
      (broadcastInDim S3300000x16 ![0, 1] Cert.ReferenceIdeal.Facts₀.bcast_S3300000x1_S3300000x16_0_1
        (broadcastInDim S3300000x1 ![0] bcast_S3300000_S3300000x1_0
          (mulf (Host.gather gd1 (normaliser ei) (wrapped (sources ei)))
            (Host.gather gd1 (normaliser ei) (wrapped (targets ei)))))))

/-- The same two features wide. -/
def weightedSum2 (ei : IVec S2x3200000 32) (h : FVec Ideal S100000x2 .f32) : FVec Ideal S100000x2 .f32 :=
  Host.scatterAdd sd2 (broadcastInDim S100000x2 ![] bcast_S_S100000x2 (constant S_ .f32 0x00000000#32))
    (column (targets ei))
    (mulf (Host.gather gd2 h (wrapped (sources ei)))
      (broadcastInDim S3300000x2 ![0, 1] Cert.ReferenceIdeal.Facts₀.bcast_S3300000x1_S3300000x2_0_1
        (broadcastInDim S3300000x1 ![0] bcast_S3300000_S3300000x1_0
          (mulf (Host.gather gd1 (normaliser ei) (wrapped (sources ei)))
            (Host.gather gd1 (normaliser ei) (wrapped (targets ei)))))))

/-- The reference program's result as one function of its arguments. -/
def referenceValue (x : FVec Ideal S100000x128 .f32) (ei : IVec S2x3200000 32) (w1 : FVec Ideal S128x16 .f32)
    (b1 : FVec Ideal S16 .f32) (w2 : FVec Ideal S16x2 .f32) (b2 : FVec Ideal S2 .f32) : FVec Ideal S100000x2 .f32 :=
  addf
    (weightedSum2 ei
      (Host.dotGeneral Cert.ReferenceIdeal.dot_S100000x16_S16x2_S100000x2_1_0_0_1_n_n none
        (maximumf
          (addf
            (weightedSum16 ei (Host.dotGeneral Cert.ReferenceIdeal.dot_S100000x128_S128x16_S100000x16_1_0_0_1_n_n none x w1))
            (broadcastInDim S100000x16 ![0, 1] Cert.ReferenceIdeal.Facts₀.bcast_S1x16_S100000x16_0_1
              (broadcastInDim S1x16 ![1] Cert.ReferenceIdeal.Facts₀.bcast_S16_S1x16_1 b1)))
          (broadcastInDim S100000x16 ![] Cert.ReferenceIdeal.Facts₀.bcast_S_S100000x16 (constant S_ .f32 0x00000000#32)))
        w2))
    (broadcastInDim S100000x2 ![0, 1] Cert.ReferenceIdeal.Facts₀.bcast_S1x2_S100000x2_0_1
      (broadcastInDim S1x2 ![1] Cert.ReferenceIdeal.Facts₀.bcast_S2_S1x2_1 b2))

end Cert.Gcn

end
-- ==== Proof.ReferenceTerm.lean ====
/-
  The reference program's composed result is `Cert.Gcn.referenceValue` of its six arguments.

  The reference's run states its result as one long term: the operations of the program composed in program order
  over the argument arrays. `referenceValue` (with `weightedSum16`, `weightedSum2`, `normaliser`, `degree`,
  `sources`, `targets`, `column`, `wrapped`) is the same composition with the graph-side subterms given names. The
  two are spelt over two programs' vocabularies: each program declares its own shapes and its own dimension records
  for the gathers and scatter-adds. The shapes are the same literals, and the records are the same lists with a proof
  of well-formedness each (`scatter16_eq` … `gather2_eq`), so the two terms agree operation by operation and the
  equation holds by unfolding the names.
-/
import proofs.«138800_j29867202576799_2_alg».proof.Proof.Reference
import proofs.«138800_j29867202576799_2_alg».proof.Proof.ReferenceRun

noncomputable section

namespace Cert.ReferenceIdeal.RefValue

open Idealize.ShloMosaic Idealize.ShloMosaic.TcCoe

variable [Cert.KernelIdeal.Facts₀] [Cert.ReferenceIdeal.Facts₀]

/-! ## The two programs' dimension records are the same records -/

/-- The scatter-add's dimension numbers, sixteen features wide: the same lists in both programs. -/
theorem scatter16_eq : Cert.ReferenceIdeal.scatter_S100000x16_S3300000x1_S3300000x16_1_0_0_1 = Cert.Gcn.sd16 := rfl
/-- The scatter-add's dimension numbers, two features wide. -/
theorem scatter2_eq : Cert.ReferenceIdeal.scatter_S100000x2_S3300000x1_S3300000x2_1_0_0_1 = Cert.Gcn.sd2 := rfl
/-- The degree count's scatter-add. -/
theorem scatter1_eq : Cert.ReferenceIdeal.scatter_S100000_S3300000x1_S3300000_n_0_0_1 = Cert.KernelIdeal.scatter_S100000_S3300000x1_S3300000_n_0_0_1 := rfl
/-- The row gather's dimension numbers, sixteen features wide. -/
theorem gather16_eq : Cert.ReferenceIdeal.gather_S100000x16_S3300000x1_S3300000x16_1_0_n_n_0_1_116 = Cert.Gcn.gd16 := rfl
/-- The row gather's dimension numbers, two features wide. -/
theorem gather2_eq : Cert.ReferenceIdeal.gather_S100000x2_S3300000x1_S3300000x2_1_0_n_n_0_1_12 = Cert.Gcn.gd2 := rfl

/-! ## The reference's composed term -/

set_option maxHeartbeats 400000 in
set_option maxRecDepth 8192 in
/-- The reference program's result, as its run states it, is `referenceValue` of the six arguments: the same
    operations composed in the same order, the graph-side subterms folded into their names. -/
theorem result_term (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v91 (F := Ideal) m c
      = Cert.Gcn.referenceValue (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  rfl

end Cert.ReferenceIdeal.RefValue

end
-- ==== Proof.LibExtendedReals.lean ====
/-
  General facts about sums and accumulating scatters on the extended reals, independent of any program.

  * `sum_mul_of_nonneg` — a nonnegative FINITE factor moves across a finite sum of extended reals. (Distributivity
    fails on the extended reals at infinite or negative factors: (1 + (-1)) · ⊤ = 0 but 1 · ⊤ + (-1) · ⊤ = ⊥. For a
    factor in [0, ∞) it holds whatever the summands are.)
  * `scatterAdd_mul`, `hostScatterAdd_mul` — the accumulating scatter `x.at[idx].add(upd)` at the ideal values is,
    at each element, the start value plus the sum of the updates landing there. If every update that lands on
    element `i` is `upd' j · c` for ONE nonnegative finite `c`, and the start value at `i` is zero, the two accumulated
    values at `i` differ by the factor `c`. The hypothesis is only asked of the updates that land on `i`
    (`d.resultIdx? j idx = some i`), which is where a per-target factor is known.
  * `rsqrt_of_one_le` — the reciprocal square root of an extended real at least 1 is nonnegative and not +∞ (of +∞
    it is 0): the shape of a degree normaliser `rsqrt (max deg 1)`.
  * `ofBits_one_f32` — the single-precision word 0x3F800000 denotes 1.
-/
import Idealize.ShloMosaic.PureOps.Ideal
import Idealize.ShloMosaic.PureOps.Ideal.Laws
import Idealize.ShloMosaic.PureOps.Contract

noncomputable section

open scoped BigOperators

namespace Cert.ExtendedReals

open Idealize.ShloMosaic

/-- A nonnegative finite factor moves across a finite sum of extended reals. -/
theorem sum_mul_of_nonneg {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- If every update that lands on element `i` is `upd' j · c` for one nonnegative finite `c`, and the sum starts from
    zero at `i`, then the two accumulated values at `i` differ by the factor `c`. -/
theorem scatterAdd_mul {s si u : Shape} {w : Nat} (d : ScatterDims s si u) (Z : s.Idx → EReal) (idx : IVec si w)
    (upd upd' : u.Idx → EReal) (i : s.Idx) (c : EReal) (hZ : Z i = 0) (h0 : 0 ≤ c) (ht : c ≠ ⊤)
    (hupd : ∀ j, d.resultIdx? j idx = some i → upd j = upd' j * c) :
    Ideal.hostScatterAdd d Z idx upd i = Ideal.hostScatterAdd d Z idx upd' i * c := by
  unfold Ideal.hostScatterAdd
  show Z i + _ = (Z i + _) * c
  rw [hZ, zero_add, zero_add, sum_mul_of_nonneg _ _ h0 ht]
  exact Finset.sum_congr rfl fun j hj => hupd j (Finset.mem_filter.mp hj).2

/-- The same for the host's accumulating scatter as a printed program spells it. Apply it by `exact` to a goal
    already in this form: restating a full-size goal through the ideal definition instead is expensive. -/
theorem hostScatterAdd_mul {s si u : Shape} {w : Nat} {φ : FTy} (d : ScatterDims s si u) (Z : FVec Ideal s φ) (idx : IVec si w)
    (upd upd' : FVec Ideal u φ) (i : s.Idx) (c : EReal) (hZ : Z i = 0) (h0 : 0 ≤ c) (ht : c ≠ ⊤)
    (hupd : ∀ j, d.resultIdx? j idx = some i → upd j = upd' j * c) :
    Host.scatterAdd d Z idx upd i = Host.scatterAdd d Z idx upd' i * c :=
  scatterAdd_mul d Z idx upd upd' i c hZ h0 ht hupd

/-- The single-precision word of 1.0 denotes 1. -/
theorem ofBits_one_f32 : Ideal.ofBits .f32 0x3F800000#32 = 1 := by
  simp [Ideal.ofBits, Ideal.ieee, -EReal.coe_mul]; norm_num

/-- The reciprocal square root of an extended real at least 1 is nonnegative and not +∞. -/
theorem rsqrt_of_one_le (y : EReal) (hy : 1 ≤ y) : 0 ≤ Ideal.rsqrt y ∧ Ideal.rsqrt y ≠ ⊤ := by
  induction y using EReal.rec with
  | bot => exact absurd (le_bot_iff.mp hy) (by exact_mod_cast EReal.coe_ne_bot (1 : ℝ))
  | top => rw [Ideal.rsqrt_top]; exact ⟨le_refl _, EReal.zero_ne_top⟩
  | coe r =>
    have hr : (1 : ℝ) ≤ r := by exact_mod_cast hy
    have h0 : ¬ r < 0 := by linarith
    have h1 : ¬ r = 0 := by intro h; rw [h] at hr; norm_num at hr
    rw [Ideal.rsqrt_coe, if_neg h0, if_neg h1]
    exact ⟨by exact_mod_cast inv_nonneg.mpr (Real.sqrt_nonneg r), EReal.coe_ne_top _⟩

end Cert.ExtendedReals

end
-- ==== Proof.Normaliser.lean ====
/-
  The normaliser deg^(-1/2) of every node is a nonnegative FINITE number, whatever the edge list holds.

  It is either `rsqrt (max deg 1)` or 0. On the extended reals the reciprocal square root of anything at least 1
  is a nonnegative real (of +∞ it is 0), so neither branch is negative and neither is +∞. This is what lets a
  node's normaliser be moved across a sum over its incoming edges: multiplication by a nonnegative finite number
  distributes over any sum of extended reals.
-/
import proofs.«138800_j29867202576799_2_alg».proof.Proof.Graph
import proofs.«138800_j29867202576799_2_alg».proof.Proof.LibExtendedReals
import Idealize.ShloMosaic.Lib.Pipeline.Value
import Idealize.ShloMosaic.PureOps.Ideal.Laws

noncomputable section

namespace Cert.Gcn

open Idealize.ShloMosaic Idealize.ShloMosaic.ValueIdx Cert.KernelIdeal Cert.ExtendedReals

variable [Facts₀]
open Facts₀

/-- A scalar constant broadcast over the nodes, read at a node. -/
theorem splat_apply (w : BitVec 32) (i : S100000.Idx) :
    broadcastInDim S100000 ![] bcast_S_S100000 (constant (F := Ideal) S_ .f32 w) i = Ideal.ofBits .f32 w :=
  broadcastInDim_apply _ bcast_S_S100000 (constant (F := Ideal) S_ .f32 w) i (fun a => a.elim0) (fun a => a.elim0)

/-- The host's reciprocal square root of a vector, read at an index. -/
theorem hostRsqrt_apply {s : Shape} {φ : FTy} (x : FVec Ideal s φ) (i : s.Idx) : Host.rsqrt x i = Ideal.rsqrt (x i) := rfl

/-- Every node's normaliser is nonnegative and finite. -/
theorem normaliser_nonneg (ei : IVec S2x3200000 32) (i : S100000.Idx) :
    0 ≤ normaliser ei i ∧ normaliser ei i ≠ ⊤ := by
  have hone : broadcastInDim S100000 ![] bcast_S_S100000 (constant (F := Ideal) S_ .f32 0x3F800000#32) i = 1 :=
    (splat_apply _ i).trans ofBits_one_f32
  have hzero : broadcastInDim S100000 ![] bcast_S_S100000 (id (constant (F := Ideal) S_ .f32 0x00000000#32)) i = 0 :=
    (splat_apply _ i).trans Ideal.ofBits_zero_f32
  unfold normaliser
  rw [select_apply]
  by_cases hb : cmpf (F := Ideal) .ogt (degree ei) (broadcastInDim S100000 ![] bcast_S_S100000 (constant S_ .f32 0x00000000#32)) i = 1#1
  · rw [hb, select_one, hostRsqrt_apply, maximumf_apply, hone]
    exact rsqrt_of_one_le _ (le_max_right _ _)
  · rw [eq_zero_of_ne_one hb, select_zero, hzero]
    exact ⟨le_refl _, EReal.zero_ne_top⟩

end Cert.Gcn

end
-- ==== Proof.EdgeSum.lean ====
/-
  The law that joins the two programs, one layer at a time.

  Write N for the nodes' normalisers, s(e) and t(e) for the (wrapped, clamped) source and target rows an edge's
  gathers read. One program weights every edge's message `h[s(e)]` by `N[s(e)] · N[t(e)]` and then sums the
  messages landing on a node `v`; the other scales the rows first, sums `(h · N)[s(e)]` over the edges landing on
  `v`, and multiplies the sum by `N[v]`. An edge lands on `v` exactly when its target word reads `v`, and then
  `t(e) = v`; so the two agree term by term up to moving the one factor `N[v]` out of the sum — which is sound on the
  extended reals because `N[v]` is nonnegative and finite (multiplication by such a number distributes over any sum).
-/
import proofs.«138800_j29867202576799_2_alg».proof.Proof.EdgeIndex
import proofs.«138800_j29867202576799_2_alg».proof.Proof.Normaliser
import proofs.«138800_j29867202576799_2_alg».proof.Proof.Reference
import proofs.«138800_j29867202576799_2_alg».proof.Proof.LibExtendedReals

noncomputable section

open scoped BigOperators

namespace Cert.Gcn

open Idealize.ShloMosaic Idealize.ShloMosaic.ValueIdx Cert.KernelIdeal Cert.ExtendedReals

variable [Facts₀] [Cert.ReferenceIdeal.Facts₀]
open Facts₀

/-- A per-edge vector as a column, read at an edge. -/
theorem edgeColumn_apply {α : Type} (z : S3300000.Idx → α) (e : Fin 3300000) :
    broadcastInDim S3300000x1 ![0] bcast_S3300000_S3300000x1_0 z (ix2 e (0 : Fin 1)) = z (ix1 e) :=
  broadcastInDim_apply _ bcast_S3300000_S3300000x1_0 z (ix2 e (0 : Fin 1)) (ix1 e) (fun a => match a with
    | ⟨0, _⟩ => by show e.val = if (3300000 : Nat) = 1 then 0 else e.val; rw [if_neg (by decide)])

/-- A per-edge column spread over sixteen features, read at an edge and a feature. -/
theorem edgeSpread16_apply {α : Type} (y : S3300000x1.Idx → α) (e : Fin 3300000) (f : Fin 16) :
    broadcastInDim S3300000x16 ![0, 1] Cert.ReferenceIdeal.Facts₀.bcast_S3300000x1_S3300000x16_0_1 y (ix2 e f) = y (ix2 e (0 : Fin 1)) :=
  broadcastInDim_apply _ Cert.ReferenceIdeal.Facts₀.bcast_S3300000x1_S3300000x16_0_1 y (ix2 e f) (ix2 e (0 : Fin 1)) (fun a => match a with
    | ⟨0, _⟩ => by show e.val = if (3300000 : Nat) = 1 then 0 else e.val; rw [if_neg (by decide)]
    | ⟨1, _⟩ => by show (0 : Nat) = if (1 : Nat) = 1 then 0 else f.val; rw [if_pos rfl])

/-- The zero array a sum starts from, read at an element. -/
theorem zeros16_apply (i : S100000x16.Idx) :
    broadcastInDim S100000x16 ![] bcast_S_S100000x16 (constant (F := Ideal) S_ .f32 0x00000000#32) i = 0 :=
  (broadcastInDim_apply _ bcast_S_S100000x16 (constant (F := Ideal) S_ .f32 0x00000000#32) i (fun a => a.elim0)
    (fun a => a.elim0)).trans Ideal.ofBits_zero_f32

/-- ONE EDGE'S MESSAGE, sixteen features wide, over arbitrary index columns `ws`, `wt` and an arbitrary per-node
    vector `N`: weighted by `N` at both ends, it is the scaled row's message times `N` at the target's row. -/
theorem message16 (N : FVec Ideal S100000 .f32) (ws wt : IVec S3300000x1 32) (h : FVec Ideal S100000x16 .f32)
    (e : Fin 3300000) (f : Fin 16) (r : Fin 100000) (hr : rowOf (wt (ix2 e (0 : Fin 1))) = r) :
    mulf (Host.gather gd16 h ws)
        (broadcastInDim S3300000x16 ![0, 1] Cert.ReferenceIdeal.Facts₀.bcast_S3300000x1_S3300000x16_0_1
          (broadcastInDim S3300000x1 ![0] bcast_S3300000_S3300000x1_0
            (mulf (Host.gather gd1 N ws) (Host.gather gd1 N wt)))) (ix2 e f)
      = Host.gather gd16 (fun u => h u * N (ix1 (u 0))) ws (ix2 e f) * N (ix1 r) := by
  rw [mulf_apply, edgeSpread16_apply, edgeColumn_apply, mulf_apply, gather16_apply, gather16_apply,
    gather1_apply, gather1_apply, hr]
  exact (mul_assoc _ _ _).symm

/-- A per-edge column spread over two features, read at an edge and a feature. -/
theorem edgeSpread2_apply {α : Type} (y : S3300000x1.Idx → α) (e : Fin 3300000) (f : Fin 2) :
    broadcastInDim S3300000x2 ![0, 1] Cert.ReferenceIdeal.Facts₀.bcast_S3300000x1_S3300000x2_0_1 y (ix2 e f) = y (ix2 e (0 : Fin 1)) :=
  broadcastInDim_apply _ Cert.ReferenceIdeal.Facts₀.bcast_S3300000x1_S3300000x2_0_1 y (ix2 e f) (ix2 e (0 : Fin 1)) (fun a => match a with
    | ⟨0, _⟩ => by show e.val = if (3300000 : Nat) = 1 then 0 else e.val; rw [if_neg (by decide)]
    | ⟨1, _⟩ => by show (0 : Nat) = if (1 : Nat) = 1 then 0 else f.val; rw [if_pos rfl])

/-- The zero array a two-wide sum starts from, read at an element. -/
theorem zerosTwo_apply (i : S100000x2.Idx) :
    broadcastInDim S100000x2 ![] bcast_S_S100000x2 (constant (F := Ideal) S_ .f32 0x00000000#32) i = 0 :=
  (broadcastInDim_apply _ bcast_S_S100000x2 (constant (F := Ideal) S_ .f32 0x00000000#32) i (fun a => a.elim0)
    (fun a => a.elim0)).trans Ideal.ofBits_zero_f32

/-- ONE EDGE'S MESSAGE, two features wide. -/
theorem message2 (N : FVec Ideal S100000 .f32) (ws wt : IVec S3300000x1 32) (h : FVec Ideal S100000x2 .f32)
    (e : Fin 3300000) (f : Fin 2) (r : Fin 100000) (hr : rowOf (wt (ix2 e (0 : Fin 1))) = r) :
    mulf (Host.gather gd2 h ws)
        (broadcastInDim S3300000x2 ![0, 1] Cert.ReferenceIdeal.Facts₀.bcast_S3300000x1_S3300000x2_0_1
          (broadcastInDim S3300000x1 ![0] bcast_S3300000_S3300000x1_0
            (mulf (Host.gather gd1 N ws) (Host.gather gd1 N wt)))) (ix2 e f)
      = Host.gather gd2 (fun u => h u * N (ix1 (u 0))) ws (ix2 e f) * N (ix1 r) := by
  rw [mulf_apply, edgeSpread2_apply, edgeColumn_apply, mulf_apply, gather2_apply, gather2_apply,
    gather1_apply, gather1_apply, hr]
  exact (mul_assoc _ _ _).symm

/-- ONE LAYER, sixteen features wide: messages weighted edge by edge and summed at their targets, against rows
    scaled first, summed, and the sum scaled by the target's normaliser. -/
theorem edgeSum16 (ei : IVec S2x3200000 32) (h : FVec Ideal S100000x16 .f32) (r : Fin 100000) (g : Fin 16) :
    weightedSum16 ei h (ix2 r g)
      = gatherSum16 ei (fun u => h u * normaliser ei (ix1 (u 0))) (ix2 r g) * normaliser ei (ix1 r) := by
  unfold weightedSum16 gatherSum16
  exact hostScatterAdd_mul sd16 _ (column (targets ei)) _ _ (ix2 r g) (normaliser ei (ix1 r)) (zeros16_apply _)
    (normaliser_nonneg ei (ix1 r)).1 (normaliser_nonneg ei (ix1 r)).2 (fun j hj => by
      obtain ⟨e, f, rfl⟩ : ∃ (e : Fin 3300000) (f : Fin 16), j = ix2 e f := ⟨j 0, j 1, eq_ix2 j⟩
      exact message16 (normaliser ei) (wrapped (sources ei)) (wrapped (targets ei)) h e f r
        (Fin.ext (landed_row16 (targets ei) e f (ix2 r g) hj)))

/-- ONE LAYER, two features wide. -/
theorem edgeSum2 (ei : IVec S2x3200000 32) (h : FVec Ideal S100000x2 .f32) (r : Fin 100000) (g : Fin 2) :
    weightedSum2 ei h (ix2 r g)
      = gatherSum2 ei (fun u => h u * normaliser ei (ix1 (u 0))) (ix2 r g) * normaliser ei (ix1 r) := by
  unfold weightedSum2 gatherSum2
  exact hostScatterAdd_mul sd2 _ (column (targets ei)) _ _ (ix2 r g) (normaliser ei (ix1 r)) (zerosTwo_apply _)
    (normaliser_nonneg ei (ix1 r)).1 (normaliser_nonneg ei (ix1 r)).2 (fun j hj => by
      obtain ⟨e, f, rfl⟩ : ∃ (e : Fin 3300000) (f : Fin 2), j = ix2 e f := ⟨j 0, j 1, eq_ix2 j⟩
      exact message2 (normaliser ei) (wrapped (sources ei)) (wrapped (targets ei)) h e f r
        (Fin.ext (landed_row2 (targets ei) e f (ix2 r g) hj)))

end Cert.Gcn

end
-- ==== Proof.Dense.lean ====
/-
  The dense operations of the two programs read at an entry, over explicit coordinates.

  * `featureProduct_apply`, `hiddenProduct_apply` — a matrix product [100000, K] × [K, G] at entry (r, g) is the sum
    over the K contracted coordinates of l[r, k] · w[k, g] (K = 128, G = 16 for the features; K = 16, G = 2 for the
    hidden layer): on the extended reals the product has no rounding and no order of accumulation left in it.
  * `biasRows16_apply`, `biasRows2_apply` — a bias vector laid as one row and repeated over the 100000 rows reads,
    at (r, g), the bias of column g.
  * `zeros2_apply`, `rectifierZeros_apply` — the zero scalar spread over an array reads 0 everywhere.
  * `normaliserColumn_apply` — the normalisers as a column [100000, 1] read, at (r, 0), the normaliser of node r.
-/
import proofs.«138800_j29867202576799_2_alg».proof.Proof.Graph
import proofs.«138800_j29867202576799_2_alg».proof.ReferenceIdeal
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Cert.KernelIdeal

variable [Facts₀] [Cert.ReferenceIdeal.Facts₀]
open Facts₀

/-! ## The two matrix products -/

/-- The left operand's index at output entry `j` and contracted coordinate `q`: row `j₀`, column `q`. -/
theorem feature_lhs_row (j : S100000x16.Idx) (q : Cert.ReferenceIdeal.dot_S100000x128_S128x16_S100000x16_1_0_0_1_n_n.contr.Idx) :
    (Cert.ReferenceIdeal.dot_S100000x128_S128x16_S100000x16_1_0_0_1_n_n.lhsIdx j q 0).val = (j 0).val := by
  unfold DotDims.lhsIdx
  rw [dif_neg (show ¬(0 : Fin S100000x128.rank) ∈ Cert.ReferenceIdeal.dot_S100000x128_S128x16_S100000x16_1_0_0_1_n_n.lhsBatch from List.not_mem_nil),
    dif_pos (show (0 : Fin S100000x128.rank) ∈ Cert.ReferenceIdeal.dot_S100000x128_S128x16_S100000x16_1_0_0_1_n_n.lhsNonContracting from List.mem_singleton.mpr rfl)]
  rfl
theorem feature_lhs_col (j : S100000x16.Idx) (q : Cert.ReferenceIdeal.dot_S100000x128_S128x16_S100000x16_1_0_0_1_n_n.contr.Idx) :
    (Cert.ReferenceIdeal.dot_S100000x128_S128x16_S100000x16_1_0_0_1_n_n.lhsIdx j q 1).val = (q ⟨0, Nat.one_pos⟩).val :=
  Cert.ReferenceIdeal.dot_S100000x128_S128x16_S100000x16_1_0_0_1_n_n.lhsIdx_val_of_single rfl j q
/-- The right operand's index there: row `q`, column `j₁`. -/
theorem feature_rhs_row (j : S100000x16.Idx) (q : Cert.ReferenceIdeal.dot_S100000x128_S128x16_S100000x16_1_0_0_1_n_n.contr.Idx) :
    (Cert.ReferenceIdeal.dot_S100000x128_S128x16_S100000x16_1_0_0_1_n_n.rhsIdx j q 0).val = (q ⟨0, Nat.one_pos⟩).val :=
  Cert.ReferenceIdeal.dot_S100000x128_S128x16_S100000x16_1_0_0_1_n_n.rhsIdx_val_of_single rfl j q
theorem feature_rhs_col (j : S100000x16.Idx) (q : Cert.ReferenceIdeal.dot_S100000x128_S128x16_S100000x16_1_0_0_1_n_n.contr.Idx) :
    (Cert.ReferenceIdeal.dot_S100000x128_S128x16_S100000x16_1_0_0_1_n_n.rhsIdx j q 1).val = (j 1).val := by
  unfold DotDims.rhsIdx
  rw [dif_neg (show ¬(1 : Fin S128x16.rank) ∈ Cert.ReferenceIdeal.dot_S100000x128_S128x16_S100000x16_1_0_0_1_n_n.rhsBatch from List.not_mem_nil),
    dif_pos (show (1 : Fin S128x16.rank) ∈ Cert.ReferenceIdeal.dot_S100000x128_S128x16_S100000x16_1_0_0_1_n_n.rhsNonContracting from List.mem_singleton.mpr rfl)]
  rfl

/-- The feature product at entry (r, g): the sum over the 128 input features of x[r, k] · w[k, g]. -/
theorem featureProduct_apply (x : FVec Ideal S100000x128 .f32) (w : FVec Ideal S128x16 .f32) (r : Fin 100000) (g : Fin 16) :
    Host.dotGeneral Cert.ReferenceIdeal.dot_S100000x128_S128x16_S100000x16_1_0_0_1_n_n none x w (ix2 r g) = ∑ k : Fin 128, x (ix2 r k) * w (ix2 k g) := by
  show FloatOps.dotGeneral Cert.ReferenceIdeal.dot_S100000x128_S128x16_S100000x16_1_0_0_1_n_n none .single x w (ix2 r g) = _
  rw [Ideal.dotGeneral_apply, ← Equiv.sum_comp (contrEquiv1 Cert.ReferenceIdeal.dot_S100000x128_S128x16_S100000x16_1_0_0_1_n_n 128 rfl rfl).symm]
  refine Finset.sum_congr rfl fun k _ => ?_
  have hk := contrEquiv1_symm_val Cert.ReferenceIdeal.dot_S100000x128_S128x16_S100000x16_1_0_0_1_n_n 128 rfl rfl k
  have el : Cert.ReferenceIdeal.dot_S100000x128_S128x16_S100000x16_1_0_0_1_n_n.lhsIdx (ix2 r g) ((contrEquiv1 Cert.ReferenceIdeal.dot_S100000x128_S128x16_S100000x16_1_0_0_1_n_n 128 rfl rfl).symm k) = ix2 r k :=
    funext fun a => Fin.ext (by
      match a with
      | ⟨0, _⟩ => exact feature_lhs_row _ _
      | ⟨1, _⟩ => exact (feature_lhs_col _ _).trans hk)
  have er : Cert.ReferenceIdeal.dot_S100000x128_S128x16_S100000x16_1_0_0_1_n_n.rhsIdx (ix2 r g) ((contrEquiv1 Cert.ReferenceIdeal.dot_S100000x128_S128x16_S100000x16_1_0_0_1_n_n 128 rfl rfl).symm k) = ix2 k g :=
    funext fun a => Fin.ext (by
      match a with
      | ⟨0, _⟩ => exact (feature_rhs_row _ _).trans hk
      | ⟨1, _⟩ => exact feature_rhs_col _ _)
  rw [el, er]

/-- The left operand's index at output entry `j` and contracted coordinate `q`: row `j₀`, column `q`. -/
theorem hidden_lhs_row (j : S100000x2.Idx) (q : Cert.ReferenceIdeal.dot_S100000x16_S16x2_S100000x2_1_0_0_1_n_n.contr.Idx) :
    (Cert.ReferenceIdeal.dot_S100000x16_S16x2_S100000x2_1_0_0_1_n_n.lhsIdx j q 0).val = (j 0).val := by
  unfold DotDims.lhsIdx
  rw [dif_neg (show ¬(0 : Fin S100000x16.rank) ∈ Cert.ReferenceIdeal.dot_S100000x16_S16x2_S100000x2_1_0_0_1_n_n.lhsBatch from List.not_mem_nil),
    dif_pos (show (0 : Fin S100000x16.rank) ∈ Cert.ReferenceIdeal.dot_S100000x16_S16x2_S100000x2_1_0_0_1_n_n.lhsNonContracting from List.mem_singleton.mpr rfl)]
  rfl
theorem hidden_lhs_col (j : S100000x2.Idx) (q : Cert.ReferenceIdeal.dot_S100000x16_S16x2_S100000x2_1_0_0_1_n_n.contr.Idx) :
    (Cert.ReferenceIdeal.dot_S100000x16_S16x2_S100000x2_1_0_0_1_n_n.lhsIdx j q 1).val = (q ⟨0, Nat.one_pos⟩).val :=
  Cert.ReferenceIdeal.dot_S100000x16_S16x2_S100000x2_1_0_0_1_n_n.lhsIdx_val_of_single rfl j q
/-- The right operand's index there: row `q`, column `j₁`. -/
theorem hidden_rhs_row (j : S100000x2.Idx) (q : Cert.ReferenceIdeal.dot_S100000x16_S16x2_S100000x2_1_0_0_1_n_n.contr.Idx) :
    (Cert.ReferenceIdeal.dot_S100000x16_S16x2_S100000x2_1_0_0_1_n_n.rhsIdx j q 0).val = (q ⟨0, Nat.one_pos⟩).val :=
  Cert.ReferenceIdeal.dot_S100000x16_S16x2_S100000x2_1_0_0_1_n_n.rhsIdx_val_of_single rfl j q
theorem hidden_rhs_col (j : S100000x2.Idx) (q : Cert.ReferenceIdeal.dot_S100000x16_S16x2_S100000x2_1_0_0_1_n_n.contr.Idx) :
    (Cert.ReferenceIdeal.dot_S100000x16_S16x2_S100000x2_1_0_0_1_n_n.rhsIdx j q 1).val = (j 1).val := by
  unfold DotDims.rhsIdx
  rw [dif_neg (show ¬(1 : Fin S16x2.rank) ∈ Cert.ReferenceIdeal.dot_S100000x16_S16x2_S100000x2_1_0_0_1_n_n.rhsBatch from List.not_mem_nil),
    dif_pos (show (1 : Fin S16x2.rank) ∈ Cert.ReferenceIdeal.dot_S100000x16_S16x2_S100000x2_1_0_0_1_n_n.rhsNonContracting from List.mem_singleton.mpr rfl)]
  rfl

/-- The hidden layer's product at entry (r, g): the sum over the 16 hidden features of h[r, k] · w[k, g]. -/
theorem hiddenProduct_apply (h : FVec Ideal S100000x16 .f32) (w : FVec Ideal S16x2 .f32) (r : Fin 100000) (g : Fin 2) :
    Host.dotGeneral Cert.ReferenceIdeal.dot_S100000x16_S16x2_S100000x2_1_0_0_1_n_n none h w (ix2 r g) = ∑ k : Fin 16, h (ix2 r k) * w (ix2 k g) := by
  show FloatOps.dotGeneral Cert.ReferenceIdeal.dot_S100000x16_S16x2_S100000x2_1_0_0_1_n_n none .single h w (ix2 r g) = _
  rw [Ideal.dotGeneral_apply, ← Equiv.sum_comp (contrEquiv1 Cert.ReferenceIdeal.dot_S100000x16_S16x2_S100000x2_1_0_0_1_n_n 16 rfl rfl).symm]
  refine Finset.sum_congr rfl fun k _ => ?_
  have hk := contrEquiv1_symm_val Cert.ReferenceIdeal.dot_S100000x16_S16x2_S100000x2_1_0_0_1_n_n 16 rfl rfl k
  have el : Cert.ReferenceIdeal.dot_S100000x16_S16x2_S100000x2_1_0_0_1_n_n.lhsIdx (ix2 r g) ((contrEquiv1 Cert.ReferenceIdeal.dot_S100000x16_S16x2_S100000x2_1_0_0_1_n_n 16 rfl rfl).symm k) = ix2 r k :=
    funext fun a => Fin.ext (by
      match a with
      | ⟨0, _⟩ => exact hidden_lhs_row _ _
      | ⟨1, _⟩ => exact (hidden_lhs_col _ _).trans hk)
  have er : Cert.ReferenceIdeal.dot_S100000x16_S16x2_S100000x2_1_0_0_1_n_n.rhsIdx (ix2 r g) ((contrEquiv1 Cert.ReferenceIdeal.dot_S100000x16_S16x2_S100000x2_1_0_0_1_n_n 16 rfl rfl).symm k) = ix2 k g :=
    funext fun a => Fin.ext (by
      match a with
      | ⟨0, _⟩ => exact (hidden_rhs_row _ _).trans hk
      | ⟨1, _⟩ => exact hidden_rhs_col _ _)
  rw [el, er]

/-! ## A bias repeated over the rows -/

/-- A bias [16] laid as a row [1, 16] and repeated over 100000 rows reads, at (r, g), the bias of column g. -/
theorem biasRows16_apply {α : Type} (b : S16.Idx → α) (r : Fin 100000) (g : Fin 16) :
    broadcastInDim S100000x16 ![0, 1] Cert.ReferenceIdeal.Facts₀.bcast_S1x16_S100000x16_0_1
      (broadcastInDim S1x16 ![1] Cert.ReferenceIdeal.Facts₀.bcast_S16_S1x16_1 b) (ix2 r g) = b (ix1 g) :=
  (broadcastInDim_apply _ Cert.ReferenceIdeal.Facts₀.bcast_S1x16_S100000x16_0_1 _ (ix2 r g) (ix2 (0 : Fin 1) g)
    (fun a => match a with
      | ⟨0, _⟩ => by show (0 : Nat) = if (1 : Nat) = 1 then 0 else r.val; rw [if_pos rfl]
      | ⟨1, _⟩ => by show g.val = if (16 : Nat) = 1 then 0 else g.val; rw [if_neg (by decide)])).trans
  (broadcastInDim_apply _ Cert.ReferenceIdeal.Facts₀.bcast_S16_S1x16_1 b (ix2 (0 : Fin 1) g) (ix1 g)
    (fun a => match a with
      | ⟨0, _⟩ => by show g.val = if (16 : Nat) = 1 then 0 else g.val; rw [if_neg (by decide)]))

/-- A bias [2] laid as a row [1, 2] and repeated over 100000 rows reads, at (r, g), the bias of column g. -/
theorem biasRows2_apply {α : Type} (b : S2.Idx → α) (r : Fin 100000) (g : Fin 2) :
    broadcastInDim S100000x2 ![0, 1] Cert.ReferenceIdeal.Facts₀.bcast_S1x2_S100000x2_0_1
      (broadcastInDim S1x2 ![1] Cert.ReferenceIdeal.Facts₀.bcast_S2_S1x2_1 b) (ix2 r g) = b (ix1 g) :=
  (broadcastInDim_apply _ Cert.ReferenceIdeal.Facts₀.bcast_S1x2_S100000x2_0_1 _ (ix2 r g) (ix2 (0 : Fin 1) g)
    (fun a => match a with
      | ⟨0, _⟩ => by show (0 : Nat) = if (1 : Nat) = 1 then 0 else r.val; rw [if_pos rfl]
      | ⟨1, _⟩ => by show g.val = if (2 : Nat) = 1 then 0 else g.val; rw [if_neg (by decide)])).trans
  (broadcastInDim_apply _ Cert.ReferenceIdeal.Facts₀.bcast_S2_S1x2_1 b (ix2 (0 : Fin 1) g) (ix1 g)
    (fun a => match a with
      | ⟨0, _⟩ => by show g.val = if (2 : Nat) = 1 then 0 else g.val; rw [if_neg (by decide)]))

/-! ## Arrays of zeros -/

/-- The zero array [100000, 2] a sum along the edges starts from, read at an element. -/
theorem zeros2_apply (i : S100000x2.Idx) :
    broadcastInDim S100000x2 ![] bcast_S_S100000x2 (constant (F := Ideal) S_ .f32 0x00000000#32) i = 0 :=
  (broadcastInDim_apply _ bcast_S_S100000x2 (constant (F := Ideal) S_ .f32 0x00000000#32) i (fun a => a.elim0)
    (fun a => a.elim0)).trans Ideal.ofBits_zero_f32

/-- The zero array [100000, 16] the rectifier compares against, read at an element. -/
theorem rectifierZeros_apply (i : S100000x16.Idx) :
    broadcastInDim S100000x16 ![] Cert.ReferenceIdeal.Facts₀.bcast_S_S100000x16
      (constant (F := Ideal) S_ .f32 0x00000000#32) i = 0 :=
  (broadcastInDim_apply _ Cert.ReferenceIdeal.Facts₀.bcast_S_S100000x16 (constant (F := Ideal) S_ .f32 0x00000000#32) i
    (fun a => a.elim0) (fun a => a.elim0)).trans Ideal.ofBits_zero_f32

/-! ## The normalisers as a column -/

/-- The column [100000, 1] of normalisers at (r, 0) is the normaliser of node r: the two arrays list the same
    100000 numbers in the same order. -/
theorem normaliserColumn_apply (ei : IVec S2x3200000 32) (r : Fin 100000) :
    normaliserColumn ei (ix2 r (0 : Fin 1)) = normaliser ei (ix1 r) := by
  unfold normaliserColumn
  exact shapeCast_apply (normaliser ei) shapeCasts_S100000_S100000x1 (ix2 r (0 : Fin 1)) (ix1 r)
    (by rw [Shape.rowMajor_val_two, Shape.rowMajor_val_one]; show r.val = r.val * 1 + 0; omega)

end Cert.Gcn

end
-- ==== Proof.Bridge.lean ====
/-
  The two programs compute one function.

  Write N for the normaliser, H for features times first weights. Row by row:
  * the kernel's first stage `scaledProduct` is H with every row scaled by its node's normaliser;
  * summing those scaled rows along the edges and scaling the sum by the target's normaliser is the reference's
    weighted sum of H (the law of EdgeSum.lean); so after bias and rectifier the two hidden layers agree, and the
    kernel's `hiddenStage` is the reference's second product with every row scaled;
  * the same law once more, two features wide, and the bias, give the result.
-/
import proofs.«138800_j29867202576799_2_alg».proof.Proof.EdgeSum
import proofs.«138800_j29867202576799_2_alg».proof.Proof.Dense

noncomputable section

open scoped BigOperators

namespace Cert.Gcn

open Idealize.ShloMosaic Idealize.ShloMosaic.ValueIdx Cert.KernelIdeal

variable [Facts₀] [Cert.ReferenceIdeal.Facts₀]
open Facts₀

/-! ## The three stages at a row and a feature -/

theorem scaledProduct_apply (x : (⟨2, ![100000, 128]⟩ : Shape).Idx → EReal) (w : (⟨2, ![128, 16]⟩ : Shape).Idx → EReal)
    (d : (⟨2, ![100000, 1]⟩ : Shape).Idx → EReal) (r : Fin 100000) (g : Fin 16) :
    scaledProduct x w d (ix2 r g) = (∑ k : Fin 128, x (ix2 r k) * w (ix2 k g)) * d (ix2 r (0 : Fin 1)) := rfl

theorem hiddenStage_apply (a : (⟨2, ![100000, 16]⟩ : Shape).Idx → EReal) (d : (⟨2, ![100000, 1]⟩ : Shape).Idx → EReal)
    (b : (⟨1, ![16]⟩ : Shape).Idx → EReal) (w : (⟨2, ![16, 2]⟩ : Shape).Idx → EReal) (r : Fin 100000) (g : Fin 2) :
    hiddenStage a d b w (ix2 r g)
      = (∑ k : Fin 16, max (a (ix2 r k) * d (ix2 r (0 : Fin 1)) + b (ix1 k)) 0 * w (ix2 k g)) * d (ix2 r (0 : Fin 1)) := rfl

theorem outputStage_apply (a : (⟨2, ![100000, 2]⟩ : Shape).Idx → EReal) (d : (⟨2, ![100000, 1]⟩ : Shape).Idx → EReal)
    (b : (⟨1, ![2]⟩ : Shape).Idx → EReal) (r : Fin 100000) (g : Fin 2) :
    outputStage a d b (ix2 r g) = a (ix2 r g) * d (ix2 r (0 : Fin 1)) + b (ix1 g) := rfl

/-! ## The stages against the reference's products -/

/-- The kernel's first stage is features times weights with every row scaled by its node's normaliser. -/
theorem scaledProduct_eq (x : FVec Ideal S100000x128 .f32) (ei : IVec S2x3200000 32) (w1 : FVec Ideal S128x16 .f32) :
    scaledProduct x w1 (normaliserColumn ei)
      = fun u => Host.dotGeneral Cert.ReferenceIdeal.dot_S100000x128_S128x16_S100000x16_1_0_0_1_n_n none x w1 u
          * normaliser ei (ix1 (u 0)) := by
  funext u
  obtain ⟨r, g, rfl⟩ : ∃ (r : Fin 100000) (g : Fin 16), u = ix2 r g := ⟨u 0, u 1, eq_ix2 u⟩
  show scaledProduct x w1 (normaliserColumn ei) (ix2 r g)
    = Host.dotGeneral _ none x w1 (ix2 r g) * normaliser ei (ix1 r)
  rw [scaledProduct_apply, normaliserColumn_apply, featureProduct_apply]

/-- The kernel's hidden stage is the reference's second product — of its own rectified, biased, weighted first
    layer — with every row scaled by its node's normaliser. -/
theorem hiddenStage_eq (x : FVec Ideal S100000x128 .f32) (ei : IVec S2x3200000 32) (w1 : FVec Ideal S128x16 .f32)
    (b1 : FVec Ideal S16 .f32) (w2 : FVec Ideal S16x2 .f32) :
    hiddenStage (gatherSum16 ei (scaledProduct x w1 (normaliserColumn ei))) (normaliserColumn ei) b1 w2
      = fun u => Host.dotGeneral Cert.ReferenceIdeal.dot_S100000x16_S16x2_S100000x2_1_0_0_1_n_n none
          (maximumf
            (addf
              (weightedSum16 ei (Host.dotGeneral Cert.ReferenceIdeal.dot_S100000x128_S128x16_S100000x16_1_0_0_1_n_n none x w1))
              (broadcastInDim S100000x16 ![0, 1] Cert.ReferenceIdeal.Facts₀.bcast_S1x16_S100000x16_0_1
                (broadcastInDim S1x16 ![1] Cert.ReferenceIdeal.Facts₀.bcast_S16_S1x16_1 b1)))
            (broadcastInDim S100000x16 ![] Cert.ReferenceIdeal.Facts₀.bcast_S_S100000x16 (constant S_ .f32 0x00000000#32)))
          w2 u * normaliser ei (ix1 (u 0)) := by
  funext u
  obtain ⟨r, g, rfl⟩ : ∃ (r : Fin 100000) (g : Fin 2), u = ix2 r g := ⟨u 0, u 1, eq_ix2 u⟩
  show hiddenStage _ _ b1 w2 (ix2 r g) = Host.dotGeneral _ none _ w2 (ix2 r g) * normaliser ei (ix1 r)
  rw [hiddenStage_apply, hiddenProduct_apply, normaliserColumn_apply]
  refine congrArg (· * normaliser ei (ix1 r)) (Finset.sum_congr rfl fun k _ => ?_)
  refine congrArg (· * w2 (ix2 k g)) ?_
  rw [maximumf_apply, addf_apply, rectifierZeros_apply, biasRows16_apply, edgeSum16, scaledProduct_eq]

/-! ## The bridge -/

/-- THE TWO PROGRAMS' VALUES ARE ONE FUNCTION of the six arguments, at the ideal values. -/
theorem referenceValue_eq_kernelValue (x : FVec Ideal S100000x128 .f32) (ei : IVec S2x3200000 32)
    (w1 : FVec Ideal S128x16 .f32) (b1 : FVec Ideal S16 .f32) (w2 : FVec Ideal S16x2 .f32) (b2 : FVec Ideal S2 .f32) :
    referenceValue x ei w1 b1 w2 b2 = kernelValue x ei w1 b1 w2 b2 := by
  funext i
  obtain ⟨r, g, rfl⟩ : ∃ (r : Fin 100000) (g : Fin 2), i = ix2 r g := ⟨i 0, i 1, eq_ix2 i⟩
  unfold referenceValue kernelValue
  rw [addf_apply, biasRows2_apply, edgeSum2, outputStage_apply, normaliserColumn_apply, hiddenStage_eq]

end Cert.Gcn

end
-- ==== Proof.lean ====
/-
  The claim of this certificate, proved.

  The kernel program is a two-layer graph convolution over 100000 nodes and 3200000 edges cut into three dense
  stages on the chip — features times weights with every row scaled by its node's normaliser deg^(-1/2); the
  aggregated first layer scaled, biased, rectified and multiplied into the second weights, scaled again; the
  aggregated second layer scaled and biased — with a gather of the source node's row and a sum at the target node,
  along the edges and the self loops, between them. The reference computes the same convolution with the weight
  N[source] · N[target] applied to every edge's message before the sum.

  Each program runs and leaves its arguments unchanged (the frames). Read on the extended reals the two results are
  equal: every node's normaliser is a nonnegative finite number whatever the edge list holds, so it distributes over
  the sum along the node's incoming edges, and an edge contributes to node v exactly when its target reads v. No
  assumption on the float inputs is used. No operation was rewritten in reading the kernel on the extended reals, so
  there is nothing to preserve.
-/
import proofs.«138800_j29867202576799_2_alg».proof.Defs
import proofs.«138800_j29867202576799_2_alg».proof.Proof.Gen.Kernel
import proofs.«138800_j29867202576799_2_alg».proof.Proof.Gen.Kernel.Skeleton
import proofs.«138800_j29867202576799_2_alg».proof.Proof.Gen.Kernel.Launch
import proofs.«138800_j29867202576799_2_alg».proof.Proof.Gen.Kernel.Points
import proofs.«138800_j29867202576799_2_alg».proof.Proof.Gen.Kernel.Frame
import proofs.«138800_j29867202576799_2_alg».proof.Proof.Gen.KernelIdeal
import proofs.«138800_j29867202576799_2_alg».proof.Proof.Gen.KernelIdeal.Skeleton
import proofs.«138800_j29867202576799_2_alg».proof.Proof.Gen.KernelIdeal.Launch
import proofs.«138800_j29867202576799_2_alg».proof.Proof.Gen.KernelIdeal.Points
import proofs.«138800_j29867202576799_2_alg».proof.Proof.Gen.KernelIdeal.Frame
import proofs.«138800_j29867202576799_2_alg».proof.Proof.Gen.ReferenceIdeal
import proofs.«138800_j29867202576799_2_alg».proof.Proof.Gen.Pre_finite_inputs
import Idealize.ShloMosaic.Adequacy
import Idealize.ShloMosaic.Init
import proofs.«138800_j29867202576799_2_alg».proof.Proof.RegionScaledProduct
import proofs.«138800_j29867202576799_2_alg».proof.Proof.RegionHidden
import proofs.«138800_j29867202576799_2_alg».proof.Proof.RegionOutput
import proofs.«138800_j29867202576799_2_alg».proof.Proof.Walk
import proofs.«138800_j29867202576799_2_alg».proof.Proof.RunValue
import proofs.«138800_j29867202576799_2_alg».proof.Proof.ReferenceRun
import proofs.«138800_j29867202576799_2_alg».proof.Proof.ReferenceTerm
import proofs.«138800_j29867202576799_2_alg».proof.Proof.Bridge

noncomputable section

namespace Cert.Proof

open Idealize.ShloMosaic Idealize.SL.Sem

/-- The kernel program as printed runs and leaves its arguments as they were. -/
theorem frame_k : Cert.frame_Kernel := fun m ρ _ => Cert.Kernel.Gen.frame m ρ
/-- So does its reading on the extended reals. -/
theorem frame_ki : Cert.frame_KernelIdeal := fun m ρ _ => Cert.KernelIdeal.Gen.frame m ρ
/-- So does the reference: its run states more (the result's value), of which this keeps the arguments' part. -/
theorem frame_ri : Cert.frame_ReferenceIdeal := fun m ρ _ =>
  (θ_run Cert.ReferenceIdeal.defs _ _).mono (fun _ h c => (h c).2) (Cert.ReferenceIdeal.ValueP.run (F := Ideal) m ρ)
/-- No operation was rewritten when the kernel was read on the extended reals: nothing to preserve. -/
theorem preserves : Cert.preserves_Kernel_KernelIdeal := trivial

/-- From memories that agree on the six arguments both programs end with the same result array: the kernel's is
    `kernelValue` of its arguments (its three regions each one whole-array stage, chained through the host's
    gather-and-sum steps), the reference's is `referenceValue` of its own (its composed term, folded), and the two
    functions agree (`bridge`). -/
theorem algebraic_of
    (bridge : ∀ (x : FVec Ideal Cert.KernelIdeal.S100000x128 .f32) (ei : IVec Cert.KernelIdeal.S2x3200000 32) (w1 : FVec Ideal Cert.KernelIdeal.S128x16 .f32)
      (b1 : FVec Ideal Cert.KernelIdeal.S16 .f32) (w2 : FVec Ideal Cert.KernelIdeal.S16x2 .f32) (b2 : FVec Ideal Cert.KernelIdeal.S2 .f32),
      Cert.Gcn.referenceValue x ei w1 b1 w2 b2 = Cert.Gcn.kernelValue x ei w1 b1 w2 b2) :
    Cert.algebraic_KernelIdeal_ReferenceIdeal := by
  intro m ρ m' ρ' _ hagree
  refine ⟨fun c => Cert.Gcn.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result_eq m ρ
          (fun V c => Cert.KernelIdeal.RegionScaledProduct.scaledProduct_array V c)
          (fun V c => Cert.KernelIdeal.RegionHidden.hiddenStage_array V c)
          (fun V c => Cert.KernelIdeal.RegionOutput.outputStage_array V c) c), (h c).2⟩)
      (Cert.KernelIdeal.Walk.run_value m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_term, (hagree c).1, (hagree c).2.1, (hagree c).2.2.1, (hagree c).2.2.2.1,
      (hagree c).2.2.2.2.1, (hagree c).2.2.2.2.2]
    exact bridge _ _ _ _ _ _

theorem algebraic : Cert.algebraic_KernelIdeal_ReferenceIdeal :=
  algebraic_of fun x ei w1 b1 w2 b2 => Cert.Gcn.referenceValue_eq_kernelValue x ei w1 b1 w2 b2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
